-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32768x1024 : Shape := ⟨2, ![32768, 1024]⟩
abbrev S32768 : Shape := ⟨1, ![32768]⟩
abbrev S1024x32768 : Shape := ⟨2, ![1024, 32768]⟩
abbrev S1024 : Shape := ⟨1, ![1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32768 : S_.BroadcastsInDim S32768 (![] : Fin 0 → Fin S32768.rank)
  reducesTo_S32768_S_d0 : S32768.ReducesTo [0] S_
  bcast_S_S1024x32768 : S_.BroadcastsInDim S1024x32768 (![] : Fin 0 → Fin S1024x32768.rank)
  reducesTo_S1024x32768_S_d0_1 : S1024x32768.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x32768 1) : IVec S_ 1 :=
  let main_c_5 : IVec S_ 1 := constantI S_ 1 1#1
  let main_v17 : IVec S_ 1 := (fun x v => Host.reduce IntOp.andi x v reducesTo_S1024x32768_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32x1024 .f32) (main_arg1 : FVec F S32768x1024 .f32) (main_arg2 : FVec F S32768 .f32) (main_arg3 : FVec F S1024x32768 .f32) (main_arg4 : FVec F S1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S1024x32768 .f32 := Host.absf main_arg3
  let main_cst_4 : FVec F S_ .f32 := constant S_ .f32 0x7F800000#32
  let main_v15 : FVec F S1024x32768 .f32 := broadcastInDim S1024x32768 ![] bcast_S_S1024x32768 main_cst_4
  let main_v16 : IVec S1024x32768 1 := cmpf .olt main_v14 main_v15
  fn_part1 (F := F) main_arg4 main_v13 main_v16
-- ==== Kernel.lean ====
abbrev S32x1024 : Shape := ⟨2, ![32, 1024]⟩
abbrev S32768x1024 : Shape := ⟨2, ![32768, 1024]⟩
abbrev S32768 : Shape := ⟨1, ![32768]⟩
abbrev S1024x32768 : Shape := ⟨2, ![1024, 32768]⟩
abbrev S1024 : Shape := ⟨1, ![1024]⟩
abbrev S1x32768 : Shape := ⟨2, ![1, 32768]⟩
abbrev S1x1024 : Shape := ⟨2, ![1, 1024]⟩
abbrev S32x32768 : Shape := ⟨2, ![32, 32768]⟩
abbrev S1024x1024 : Shape := ⟨2, ![1024, 1024]⟩
abbrev S32x2048 : Shape := ⟨2, ![32, 2048]⟩

abbrev nBuf : Space → Nat
  | .hbm => 9
  | .vmem => 17
  | .smem => 0
  | _ => 0

abbrev bufTy : (tb : Table) → Fin (tcTables nBuf tb) → BufTy
  | .hbm, ⟨0, _⟩ => ⟨S32x1024, .f32⟩
  | .hbm, ⟨1, _⟩ => ⟨S32768x1024, .f32⟩
  | .hbm, ⟨2, _⟩ => ⟨S32768, .f32⟩
  | .hbm, ⟨3, _⟩ => ⟨S1024x32768, .f32⟩
  | .hbm, ⟨4, _⟩ => ⟨S1024, .f32⟩
  | .hbm, ⟨5, _⟩ => ⟨S1x32768, .f32⟩
  | .hbm, ⟨6, _⟩ => ⟨S1x1024, .f32⟩
  | .hbm, ⟨7, _⟩ => ⟨S32x1024, .f32⟩
  | .hbm, ⟨8, _⟩ => ⟨S32x32768, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S32x1024, .f32⟩
  | .local _ .vmem, ⟨15, _⟩ => ⟨S32x2048, .f32⟩
  | .local _ .vmem, ⟨16, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_23 : BitVec 32 := 0#32
  let v27 : BitVec 1 := Scalar.cmpi .ne v26 c0_i32_23
  v27

def k0_cond2 (i : grid0.Coords) : BitVec 1 :=
  let arg0 : BitVec 32 := BitVec.ofNat 32 (i 0).val
  let c0_i32_24 : BitVec 32 := 0#32
  let v28 : BitVec 1 := Scalar.cmpi .sgt arg0 c0_i32_24
  let v29 : BitVec 32 := Scalar.extui v28
  let c0_i32_25 : BitVec 32 := 0#32
  let v30 : BitVec 1 := Scalar.cmpi .ne v29 c0_i32_25
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32768_S1x32768 : S32768.ShapeCasts S1x32768
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S32x2048_S32x1024_0_0 : ∀ a, (![0, 0] : Fin 2 → Nat) a + S32x1024.size a ≤ S32x2048.size a
  inb_S32x2048_S32x1024_0_1024 : ∀ a, (![0, 1024] : Fin 2 → Nat) a + S32x1024.size a ≤ S32x2048.size a
  shapeCasts_S32x1024_S32x1024 : S32x1024.ShapeCasts S32x1024
  dot_S32x1024_S1024x1024_S32x1024_1_1_0_0_n_n_wf : DotDims.WF S32x1024 S1024x1024 S32x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x32768.size a
  hwx0_3 : ∀ i : grid0.Coords, EltTy.bits .f32 = 32 ∨ (Rect.block (s := S1x32768) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x32768.size a
  hwx0_4 : ∀ i : grid0.Coords, EltTy.bits .f32 = 32 ∨ (Rect.block (s := S1x32768) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x32768.size a
  hwx0_5 : ∀ i : grid0.Coords, EltTy.bits .f32 = 32 ∨ (Rect.block (s := S1024x32768) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x32768.size a
  hwx0_6 : ∀ i : grid0.Coords, EltTy.bits .f32 = 32 ∨ (Rect.block (s := S1024x32768) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .f32 = 32 ∨ (Rect.block (s := S32x1024) S32x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x2048.size a ≤ S32x32768.size a
  hwx0_9 : ∀ i : grid0.Coords, EltTy.bits .f32 = 32 ∨ (Rect.block (s := S32x32768) S32x2048.size (cc0_transform_9 i) (hinb0_9 i)).WholeWords (EltTy.packing .f32)

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S32x1024.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S32x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) | 9 => fun _ => false | ⟨_ + 10, h⟩ => absurd h (Nat.not_lt.2 (Nat.le_add_left _ _))

class Facts : Prop extends Facts₀ where

variable [Facts]
-- ==== ReferenceIdeal.lean ====
abbrev S32x1024 : Shape := ⟨2, ![32, 1024]⟩
abbrev S32768x1024 : Shape := ⟨2, ![32768, 1024]⟩
abbrev S32768 : Shape := ⟨1, ![32768]⟩
abbrev S1024x32768 : Shape := ⟨2, ![1024, 32768]⟩
abbrev S1024 : Shape := ⟨1, ![1024]⟩
abbrev S32x32768 : Shape := ⟨2, ![32, 32768]⟩
abbrev S1x32768 : Shape := ⟨2, ![1, 32768]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32768x1024, .f32⟩
  | .hbm, ⟨2, _⟩ => ⟨S32768, .f32⟩
  | .hbm, ⟨3, _⟩ => ⟨S1024x32768, .f32⟩
  | .hbm, ⟨4, _⟩ => ⟨S1024, .f32⟩
  | .hbm, ⟨5, _⟩ => ⟨S1024x32768, .f32⟩
  | .hbm, ⟨6, _⟩ => ⟨S32x32768, .f32⟩
  | .hbm, ⟨7, _⟩ => ⟨S1x32768, .f32⟩
  | .hbm, ⟨8, _⟩ => ⟨S32x32768, .f32⟩
  | .hbm, ⟨9, _⟩ => ⟨S32x32768, .f32⟩
  | .hbm, ⟨10, _⟩ => ⟨S_, .f32⟩
  | .hbm, ⟨11, _⟩ => ⟨S32x32768, .f32⟩
  | .hbm, ⟨12, _⟩ => ⟨S32x32768, .f32⟩
  | .hbm, ⟨13, _⟩ => ⟨S32768x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  transposes_S32768x1024_S1024x32768_1_0 : S32768x1024.Transposes [1, 0] S1024x32768
  bcast_S32768_S1x32768_1 : S32768.BroadcastsInDim S1x32768 (![1] : Fin 1 → Fin S1x32768.rank)
  bcast_S1x32768_S32x32768_0_1 : S1x32768.BroadcastsInDim S32x32768 (![0, 1] : Fin 2 → Fin S32x32768.rank)
  bcast_S_S32x32768 : S_.BroadcastsInDim S32x32768 (![] : Fin 0 → Fin S32x32768.rank)
  transposes_S1024x32768_S32768x1024_1_0 : S1024x32768.Transposes [1, 0] S32768x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  dot_S32x1024_S1024x32768_S32x32768_1_0_0_1_n_n_wf : DotDims.WF S32x1024 S1024x32768 S32x32768 [1] [0] [0] [1] [] []
  dot_S32x32768_S32768x1024_S32x1024_1_0_0_1_n_n_wf : DotDims.WF S32x32768 S32768x1024 S32x1024 [1] [0] [0] [1] [] []

variable [Facts₀]

def dot_S32x1024_S1024x32768_S32x32768_1_0_0_1_n_n : DotDims S32x1024 S1024x32768 S32x32768 where
  lhsContracting := [1]
  rhsContracting := [0]
  lhsNonContracting := [0]
  rhsNonContracting := [1]
  lhsBatch := []
  rhsBatch := []
  wf := dot_S32x1024_S1024x32768_S32x32768_1_0_0_1_n_n_wf
def dot_S32x32768_S32768x1024_S32x1024_1_0_0_1_n_n : DotDims S32x32768 S32768x1024 S32x1024 where
  lhsContracting := [1]
  rhsContracting := [0]
  lhsNonContracting := [0]
  rhsNonContracting := [1]
  lhsBatch := []
  rhsBatch := []
  wf := dot_S32x32768_S32768x1024_S32x1024_1_0_0_1_n_n_wf

class Facts : Prop extends Facts₀ where

variable [Facts]
-- ==== Proof.BitsEntry.lean ====
/-
  The region as @main reaches it, and what its input windows hold.

  @main reshapes the two bias vectors to one-row matrices and then launches the one pipelined region, so the
  region finds every argument array as launched and the two reshaped biases beside them. The region has ten windows
  over a grid of 16 points: the activations x (one block, fetched once), the encoder weights twice (block 2t and
  block 2t + 1 of 32 row-blocks), the encoder bias twice (likewise, of 32 column-blocks), the decoder weights twice
  (column-blocks 2t and 2t + 1), the decoder bias (one block), and the two results: the reconstruction (one block,
  carried from point to point and written back after the last) and the hidden code (column-block t of 16, written
  back at every point). Each input window's current staging buffer holds its array's block at every point. The body
  branches twice on the point: the first branch is taken at point 0 only, the second at every later point.
-/
import proofs.«126260_g48773648613903_cont_8to1_c_1082_14_alg».proof.Proof.Gen.Kernel.Launch
import proofs.«126260_g48773648613903_cont_8to1_c_1082_14_alg».proof.Proof.Gen.Kernel.Skeleton
import proofs.«126260_g48773648613903_cont_8to1_c_1082_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch contents after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. For any proof data whose array is the region's and whose body leaves the
    block in place; stated window by window, each window's block shape being its own. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The first branch's condition (the point is the first), from the grid coordinates. -/
abbrev isFirst (i : grid0.Coords) : Prop := k0_cond1 i = 1#1
/-- The second branch's condition (the point is a later one). -/
abbrev isLater (i : grid0.Coords) : Prop := k0_cond2 i = 1#1

/-- The first branch is taken at point 0 only; -/
theorem isFirst_iff : ∀ t : Fin cfg0.N, isFirst (grid0.coords t) ↔ t.val = 0 :=
  (by decide +kernel : ∀ t : Fin grid0.N, isFirst (grid0.coords t) ↔ t.val = 0)
/-- the second at every other point. -/
theorem isLater_iff : ∀ t : Fin cfg0.N, isLater (grid0.coords t) ↔ t.val ≠ 0 :=
  (by decide +kernel : ∀ t : Fin grid0.N, isLater (grid0.coords t) ↔ t.val ≠ 0)

/-- At every coordinate one of the two branches stores into the reconstruction's buffer: the window is nowhere idle. -/
theorem live_8 : ∀ i : grid0.Coords, cfg0.idle 8 i = false := by decide +kernel

/-! ## The staging memrefs as the pipeline passes them -/

abbrev ms0 (t : Fin cfg0.N) : Memref sig .tc .vmem S32x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x2048 .f32 := win0_9.stage (cfg0.slots t 9)
abbrev hs9 (t : Fin cfg0.N) : (ms9 t).IsWhole := hstage0_9 ((cfg0.slots t 9).cast nbuf0_9)

/-- One staging buffer of each result window, through which what the body leaves there is stated. -/
abbrev VO8 : View sig .tc .vmem S32x1024 .f32 := (Memref.whole cc0_stg8_0 : Memref sig .tc .vmem S32x1024 .f32).view
abbrev VO9 : View sig .tc .vmem S32x2048 .f32 := (Memref.whole cc0_stg9_0 : Memref sig .tc .vmem S32x2048 .f32).view

end Cert.Kernel.Hand

end
-- ==== Proof.BitsRunFirst.lean ====
/-
  The body at the first grid point.

  There the first branch is taken and the second is not: the body reads its eight input buffers, stores the two
  halves of the hidden block into the code's buffer, and stores the block's share plus the output bias into the
  reconstruction's buffer, whose earlier contents it does not use. On whole staging memrefs, the inputs at their
  contents and the two result buffers at anything, the body runs to the inputs as they were and each result buffer
  written by the stores the run finds (the witness: the pieces, last first).
-/
import proofs.«126260_g48773648613903_cont_8to1_c_1082_14_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point's run: the pieces left in the reconstruction's buffer and in the code's buffer, with the body's
    triple over them. -/
noncomputable def runFirst (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole)
    (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) :
    { L : List (View.Piece (Elt F) S32x1024 .f32) × List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Hand

end
-- ==== Proof.BitsRunLater.lean ====
/-
  The body at a later grid point.

  There the first branch is skipped and the second is taken: the body reads its input buffers, stores the two halves of
  the hidden block into the code's buffer, then loads the reconstruction's buffer — which holds what the point before
  left — and stores it plus this block's share. On whole staging memrefs, the inputs at their contents, the
  reconstruction's buffer at the carried total and the code's buffer at anything, the body runs to the inputs as
  they were and each result buffer written by the stores the run finds.
-/
import proofs.«126260_g48773648613903_cont_8to1_c_1082_14_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point's run: the pieces left in the two result buffers, over the carried total `xo`. -/
noncomputable def runLater (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole)
    (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) :
    { L : List (View.Piece (Elt F) S32x1024 .f32) × List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare xo ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Hand

end
-- ==== Proof.BitsData.lean ====
/-
  What the two result buffers hold after each grid point, and the pipeline's proof data.

  Each case's stores tile the buffer they write — one whole-block store for the reconstruction, two half-block
  stores for the hidden code — so what the case leaves there is its pieces read back. The reconstruction's buffer is
  not written back until the last point: after point 0 it holds the first case's contents, after each later point the
  second case's contents over what the point before left. The hidden code's buffer is written back at every point.
  The proof data: the arrays as the region finds them; each input's buffer at its block; the two result buffers at the
  contents above; nothing carried between points but the scoped rest; nothing owed. The encoder weights, the encoder
  bias and the decoder weights are each read through two windows: each such window holds its array at one half of
  the full share, every other input window at the full share.
-/
import proofs.«126260_g48773648613903_cont_8to1_c_1082_14_alg».proof.Proof.BitsRunFirst
import proofs.«126260_g48773648613903_cont_8to1_c_1082_14_alg».proof.Proof.BitsRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's store into the reconstruction's buffer covers it; -/
theorem coverFirst8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (y : S32x1024.Idx) :
    ∃ pc ∈ (runFirst c i arg1 harg1 arg2 harg2 arg3 harg3 arg4 harg4 arg5 harg5 arg6 harg6 arg7 harg7 arg8 harg8 arg9 harg9 arg10 harg10 hc1 hc2 x0 x1 x2 x3 x4 x5 x6 x7).1.1, y ∈ pc.1.set :=
  View.cover_of_tiledL (runFirst c i arg1 harg1 arg2 harg2 arg3 harg3 arg4 harg4 arg5 harg5 arg6 harg6 arg7 harg7 arg8 harg8 arg9 harg9 arg10 harg10 hc1 hc2 x0 x1 x2 x3 x4 x5 x6 x7).1.1 S32x1024.size (by sl_kernel_rfl) y
/-- its two stores into the code's buffer tile that one. -/
theorem coverFirst9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (y : S32x2048.Idx) :
    ∃ pc ∈ (runFirst c i arg1 harg1 arg2 harg2 arg3 harg3 arg4 harg4 arg5 harg5 arg6 harg6 arg7 harg7 arg8 harg8 arg9 harg9 arg10 harg10 hc1 hc2 x0 x1 x2 x3 x4 x5 x6 x7).1.2, y ∈ pc.1.set :=
  View.cover_of_tiledL (runFirst c i arg1 harg1 arg2 harg2 arg3 harg3 arg4 harg4 arg5 harg5 arg6 harg6 arg7 harg7 arg8 harg8 arg9 harg9 arg10 harg10 hc1 hc2 x0 x1 x2 x3 x4 x5 x6 x7).1.2 S32x1024.size (by sl_kernel_rfl) y

/-- What the first case leaves in the reconstruction's buffer: its pieces read back. -/
def outFirst8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) : Vec F S32x1024 .f32 :=
  VO8.read (Elt F) (VO8.writes (Elt F) VO8.junk (runFirst c i arg1 harg1 arg2 harg2 arg3 harg3 arg4 harg4 arg5 harg5 arg6 harg6 arg7 harg7 arg8 harg8 arg9 harg9 arg10 harg10 hc1 hc2 x0 x1 x2 x3 x4 x5 x6 x7).1.1)
/-- What the first case leaves in the code's buffer. -/
def outFirst9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) : Vec F S32x2048 .f32 :=
  VO9.read (Elt F) (VO9.writes (Elt F) VO9.junk (runFirst c i arg1 harg1 arg2 harg2 arg3 harg3 arg4 harg4 arg5 harg5 arg6 harg6 arg7 harg7 arg8 harg8 arg9 harg9 arg10 harg10 hc1 hc2 x0 x1 x2 x3 x4 x5 x6 x7).1.2)

theorem coverLater8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) (y : S32x1024.Idx) :
    ∃ pc ∈ (runLater c i arg1 harg1 arg2 harg2 arg3 harg3 arg4 harg4 arg5 harg5 arg6 harg6 arg7 harg7 arg8 harg8 arg9 harg9 arg10 harg10 hc1 hc2 x0 x1 x2 x3 x4 x5 x6 x7 xo).1.1, y ∈ pc.1.set :=
  View.cover_of_tiledL (runLater c i arg1 harg1 arg2 harg2 arg3 harg3 arg4 harg4 arg5 harg5 arg6 harg6 arg7 harg7 arg8 harg8 arg9 harg9 arg10 harg10 hc1 hc2 x0 x1 x2 x3 x4 x5 x6 x7 xo).1.1 S32x1024.size (by sl_kernel_rfl) y
theorem coverLater9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) (y : S32x2048.Idx) :
    ∃ pc ∈ (runLater c i arg1 harg1 arg2 harg2 arg3 harg3 arg4 harg4 arg5 harg5 arg6 harg6 arg7 harg7 arg8 harg8 arg9 harg9 arg10 harg10 hc1 hc2 x0 x1 x2 x3 x4 x5 x6 x7 xo).1.2, y ∈ pc.1.set :=
  View.cover_of_tiledL (runLater c i arg1 harg1 arg2 harg2 arg3 harg3 arg4 harg4 arg5 harg5 arg6 harg6 arg7 harg7 arg8 harg8 arg9 harg9 arg10 harg10 hc1 hc2 x0 x1 x2 x3 x4 x5 x6 x7 xo).1.2 S32x1024.size (by sl_kernel_rfl) y

/-- What a later case leaves in the reconstruction's buffer, over the carried total `xo`. -/
def outLater8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) : Vec F S32x1024 .f32 :=
  VO8.read (Elt F) (VO8.writes (Elt F) VO8.junk (runLater c i arg1 harg1 arg2 harg2 arg3 harg3 arg4 harg4 arg5 harg5 arg6 harg6 arg7 harg7 arg8 harg8 arg9 harg9 arg10 harg10 hc1 hc2 x0 x1 x2 x3 x4 x5 x6 x7 xo).1.1)
/-- What a later case leaves in the code's buffer. -/
def outLater9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) : Vec F S32x2048 .f32 :=
  VO9.read (Elt F) (VO9.writes (Elt F) VO9.junk (runLater c i arg1 harg1 arg2 harg2 arg3 harg3 arg4 harg4 arg5 harg5 arg6 harg6 arg7 harg7 arg8 harg8 arg9 harg9 arg10 harg10 hc1 hc2 x0 x1 x2 x3 x4 x5 x6 x7 xo).1.2)

/-! ## Point by point -/

/-- The reconstruction's buffer after the body at position n: the first case at 0, a later case over the total so far. -/
def total (c : Dev nD) : (n : ℕ) → n < cfg0.N → Vec F S32x1024 .f32
  | 0, hn => outFirst8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((isFirst_iff ⟨0, hn⟩).mpr rfl) (fun h => (isLater_iff ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => outLater8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => Nat.succ_ne_zero n ((isFirst_iff ⟨n + 1, hn⟩).mp h)) ((isLater_iff ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (total c n (Nat.lt_of_succ_lt hn))

/-- The code's buffer after the body at position n. -/
def hidden (c : Dev nD) : (n : ℕ) → n < cfg0.N → Vec F S32x2048 .f32
  | 0, hn => outFirst9 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((isFirst_iff ⟨0, hn⟩).mpr rfl) (fun h => (isLater_iff ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => outLater9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => Nat.succ_ne_zero n ((isFirst_iff ⟨n + 1, hn⟩).mp h)) ((isLater_iff ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (total m c n (Nat.lt_of_succ_lt hn))

/-- At the first point: the first case's contents. -/
theorem total_first (c : Dev nD) (t : Fin cfg0.N) (h0 : t.val = 0) :
    total m c t.val t.isLt = outFirst8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h0) (fun h => (isLater_iff t).mp h h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact absurd h0 (Nat.succ_ne_zero n)
theorem hidden_first (c : Dev nD) (t : Fin cfg0.N) (h0 : t.val = 0) :
    hidden m c t.val t.isLt = outFirst9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h0) (fun h => (isLater_iff t).mp h h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact absurd h0 (Nat.succ_ne_zero n)

/-- At a later point: the later case's contents over what the point before left. -/
theorem total_later (c : Dev nD) (t : Fin cfg0.N) (h0 : t.val ≠ 0) :
    total m c t.val t.isLt = outLater8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) (total m c (t.val - 1) (Nat.lt_of_le_of_lt (Nat.sub_le _ _) t.isLt)) := by
  obtain ⟨n, hn⟩ := t
  cases n with
  | zero => exact absurd rfl h0
  | succ n => exact rfl
theorem hidden_later (c : Dev nD) (t : Fin cfg0.N) (h0 : t.val ≠ 0) :
    hidden m c t.val t.isLt = outLater9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) (total m c (t.val - 1) (Nat.lt_of_le_of_lt (Nat.sub_le _ _) t.isLt)) := by
  obtain ⟨n, hn⟩ := t
  cases n with
  | zero => exact absurd rfl h0
  | succ n => exact rfl

/-! ## The proof data -/

/-- The share each window holds its array at: the three arrays read through two windows are halved between them. -/
def shareOf : Fin 10 → PosShare TreeShare
  | ⟨1, _⟩ => fullShare.left | ⟨2, _⟩ => fullShare.right
  | ⟨3, _⟩ => fullShare.left | ⟨4, _⟩ => fullShare.right
  | ⟨5, _⟩ => fullShare.left | ⟨6, _⟩ => fullShare.right
  | _ => fullShare

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => total m c t.val t.isLt
    | ⟨9, _⟩ => hidden m c t.val t.isLt
  Φ _ := Pipeline.scopedRest spec0 c
  q := shareOf
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = total m c t.val t.isLt := by dsimp only [dats]
theorem after_9 (c : Dev nD) (t : Fin cfg0.N) : (dats m 0 c).after 9 t = hidden m c t.val t.isLt := by dsimp only [dats]

/-- Each input's current staging buffer holds its block at every point. -/
theorem before_0 (c : Dev nD) (t : Fin cfg0.N) (d) : (dats m 0 c).before 0 t d = iblk m c 0 t := before_in_0 m (dats m 0 c) (A_eq m c 0) (after_0 m c) t d
theorem before_1 (c : Dev nD) (t : Fin cfg0.N) (d) : (dats m 0 c).before 1 t d = iblk m c 1 t := before_in_1 m (dats m 0 c) (A_eq m c 1) (after_1 m c) t d
theorem before_2 (c : Dev nD) (t : Fin cfg0.N) (d) : (dats m 0 c).before 2 t d = iblk m c 2 t := before_in_2 m (dats m 0 c) (A_eq m c 2) (after_2 m c) t d
theorem before_3 (c : Dev nD) (t : Fin cfg0.N) (d) : (dats m 0 c).before 3 t d = iblk m c 3 t := before_in_3 m (dats m 0 c) (A_eq m c 3) (after_3 m c) t d
theorem before_4 (c : Dev nD) (t : Fin cfg0.N) (d) : (dats m 0 c).before 4 t d = iblk m c 4 t := before_in_4 m (dats m 0 c) (A_eq m c 4) (after_4 m c) t d
theorem before_5 (c : Dev nD) (t : Fin cfg0.N) (d) : (dats m 0 c).before 5 t d = iblk m c 5 t := before_in_5 m (dats m 0 c) (A_eq m c 5) (after_5 m c) t d
theorem before_6 (c : Dev nD) (t : Fin cfg0.N) (d) : (dats m 0 c).before 6 t d = iblk m c 6 t := before_in_6 m (dats m 0 c) (A_eq m c 6) (after_6 m c) t d
theorem before_7 (c : Dev nD) (t : Fin cfg0.N) (d) : (dats m 0 c).before 7 t d = iblk m c 7 t := before_in_7 m (dats m 0 c) (A_eq m c 7) (after_7 m c) t d

/-- At a later point the reconstruction's buffer holds what the body left at the point before: the buffer is not
    written back between (only after the last point), the window is live everywhere and its block whole. -/
theorem before_8_later (c : Dev nD) (t : Fin cfg0.N) (h0 : t.val ≠ 0) (d) :
    (dats m 0 c).before 8 t d = total m c (t.val - 1) (Nat.lt_of_le_of_lt (Nat.sub_le _ _) t.isLt) := by
  have hN : t.val < 16 := lt_of_lt_of_eq t.isLt (show cfg0.N = 16 from N_0)
  rw [Dat.before_out_kept _ 8 rfl t h0 (Bool.eq_false_iff.mpr fun h => by have := (flush0_8 _).mp h; dsimp only at this; omega)
    live_8 (fun _ _ => rfl)]
  dsimp only [dats]

end Cert.Kernel.Hand

end
-- ==== Proof.BitsBody.lean ====
/-
  The body obligation at every grid point.

  The body is called with each window's current staging buffer: the eight inputs at their blocks, the
  reconstruction's buffer at what the point before left (at the first point: anything), the code's buffer at
  anything. The point is the first or a later one; in either case that case's run applies, and what it leaves in the
  two result buffers is the proof data's contents for the point. Nothing else is carried, and the core owes nothing.
-/
import proofs.«126260_g48773648613903_cont_8to1_c_1082_14_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h0 : t.val = 0
  · rw [total_first m c t h0, hidden_first m c t h0]
    unfold outFirst8 outFirst9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) _ _ _ _ _ _ _ _ _ _ _ _ _ _ _ _ _ _ _ _ ((isFirst_iff t).mpr h0) (fun h => (isLater_iff t).mp h h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverFirst8 c _ _ _ _ _ _ _ _ _ _ _ _ _ _ _ _ _ _ _ _ _ _ _ _ _ _ _ _ _ _ _)
    · unfold owns; iexists _; isplitr
      swap; · iexact H9
      ipureintro; exact View.read_writes_of_cover _ _ _ _ _ (coverFirst9 c _ _ _ _ _ _ _ _ _ _ _ _ _ _ _ _ _ _ _ _ _ _ _ _ _ _ _ _ _ _ _)
  · rw [total_later m c t h0, hidden_later m c t h0]
    simp only [before_8_later m c t h0]
    unfold outLater8 outLater9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater c (grid0.coords t) _ _ _ _ _ _ _ _ _ _ _ _ _ _ _ _ _ _ _ _ (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverLater8 c _ _ _ _ _ _ _ _ _ _ _ _ _ _ _ _ _ _ _ _ _ _ _ _ _ _ _ _ _ _ _ _)
    · unfold owns; iexists _; isplitr
      swap; · iexact H9
      ipureintro; exact View.read_writes_of_cover _ _ _ _ _ (coverLater9 c _ _ _ _ _ _ _ _ _ _ _ _ _ _ _ _ _ _ _ _ _ _ _ _ _ _ _ _ _ _ _ _)

/-- The reconstruction's window is live at every point, in the spelling the obligation states it in. -/
theorem live_8_at (t : Fin cfg0.N) : cfg0.idle 8 (cfg0.grid.coords t) = false := live_8 _

/-- The library's body obligation, at every point: the reconstruction's window is live there, so every window's
    buffer is returned at what the body left. -/
theorem body_obligation (c : Dev nD) : BodyObligation (dats (F := F) m 0 c) (defs₀ (F := F)) Variants.none () Set.univ := fun t => by
  rw [bigSep_W0, bigSep_W0]
  rw [live_8_at t]
  show bodyPre m c t ⊢ wp frame (wpE (defs₀ (F := F)) Variants.none c none) Set.univ (bodyAt0 t) (fun _ => bodyPost m c t)
  exact sound_body m c t

end Cert.Kernel.Hand

end
-- ==== Proof.BitsSplit.lean ====
/-
  The arrays dealt among the windows.

  The region is handed seven distinct arrays, each whole at the full share: x, the encoder weights, the reshaped
  encoder bias, the decoder weights, the reshaped decoder bias, and the two results. Ten windows stand on them. The
  encoder weights, the encoder bias and the decoder weights are each read by two windows: the array's full share is
  split into its two halves, one for each window, which is all a window that only reads needs. Every other array goes
  to its one window whole.
-/
import proofs.«126260_g48773648613903_cont_8to1_c_1082_14_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the ten windows. -/
theorem arrays_listed :
    Finset.univ.image (Pipeline.arrRef spec0) = [main_arg0, main_arg1, main_v0, main_arg3, main_v1, main_v2_0, main_v2_1].toFinset := by
  decide

/-- A window's array in the proof data's own words — the array's view, its element set, the window's share, the entry
    contents — is the whole buffer at that share at the region's contents. -/
theorem arr_pt (c : Dev nD) (w : Fin cfg0.W) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{(dats m 0 c).share w} V m c (Pipeline.arrRef spec0 w)) := by
  rw [(arr_whole0 w).set_eq_univ]; rfl

theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.left := rfl
theorem share_4 (c : Dev nD) : (dats m 0 c).share 4 = fullShare.right := rfl
theorem share_5 (c : Dev nD) : (dats m 0 c).share 5 = fullShare.left := rfl
theorem share_6 (c : Dev nD) : (dats m 0 c).share 6 = fullShare.right := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

/-- The same window by window, the array and the share named. -/
theorem arr_pt_0 (c : Dev nD) :
    ((cfg0.win 0).arr.view.loc (c : Thread nD τ) ↦[(cfg0.win 0).arr.view.set]{(dats m 0 c).share 0} (dats m 0 c).arrAt 0 0 : sProp 𝕄)
      = (((c : Thread nD τ).loc main_arg0) ↦{fullShare} V m c main_arg0) := by
  rw [arr_pt, share_0]
theorem arr_pt_1 (c : Dev nD) :
    ((cfg0.win 1).arr.view.loc (c : Thread nD τ) ↦[(cfg0.win 1).arr.view.set]{(dats m 0 c).share 1} (dats m 0 c).arrAt 1 0 : sProp 𝕄)
      = (((c : Thread nD τ).loc main_arg1) ↦{fullShare.left} V m c main_arg1) := by
  rw [arr_pt, share_1]
theorem arr_pt_2 (c : Dev nD) :
    ((cfg0.win 2).arr.view.loc (c : Thread nD τ) ↦[(cfg0.win 2).arr.view.set]{(dats m 0 c).share 2} (dats m 0 c).arrAt 2 0 : sProp 𝕄)
      = (((c : Thread nD τ).loc main_arg1) ↦{fullShare.right} V m c main_arg1) := by
  rw [arr_pt, share_2]
theorem arr_pt_3 (c : Dev nD) :
    ((cfg0.win 3).arr.view.loc (c : Thread nD τ) ↦[(cfg0.win 3).arr.view.set]{(dats m 0 c).share 3} (dats m 0 c).arrAt 3 0 : sProp 𝕄)
      = (((c : Thread nD τ).loc main_v0) ↦{fullShare.left} V m c main_v0) := by
  rw [arr_pt, share_3]
theorem arr_pt_4 (c : Dev nD) :
    ((cfg0.win 4).arr.view.loc (c : Thread nD τ) ↦[(cfg0.win 4).arr.view.set]{(dats m 0 c).share 4} (dats m 0 c).arrAt 4 0 : sProp 𝕄)
      = (((c : Thread nD τ).loc main_v0) ↦{fullShare.right} V m c main_v0) := by
  rw [arr_pt, share_4]
theorem arr_pt_5 (c : Dev nD) :
    ((cfg0.win 5).arr.view.loc (c : Thread nD τ) ↦[(cfg0.win 5).arr.view.set]{(dats m 0 c).share 5} (dats m 0 c).arrAt 5 0 : sProp 𝕄)
      = (((c : Thread nD τ).loc main_arg3) ↦{fullShare.left} V m c main_arg3) := by
  rw [arr_pt, share_5]
theorem arr_pt_6 (c : Dev nD) :
    ((cfg0.win 6).arr.view.loc (c : Thread nD τ) ↦[(cfg0.win 6).arr.view.set]{(dats m 0 c).share 6} (dats m 0 c).arrAt 6 0 : sProp 𝕄)
      = (((c : Thread nD τ).loc main_arg3) ↦{fullShare.right} V m c main_arg3) := by
  rw [arr_pt, share_6]
theorem arr_pt_7 (c : Dev nD) :
    ((cfg0.win 7).arr.view.loc (c : Thread nD τ) ↦[(cfg0.win 7).arr.view.set]{(dats m 0 c).share 7} (dats m 0 c).arrAt 7 0 : sProp 𝕄)
      = (((c : Thread nD τ).loc main_v1) ↦{fullShare} V m c main_v1) := by
  rw [arr_pt, share_7]
theorem arr_pt_8 (c : Dev nD) :
    ((cfg0.win 8).arr.view.loc (c : Thread nD τ) ↦[(cfg0.win 8).arr.view.set]{(dats m 0 c).share 8} (dats m 0 c).arrAt 8 0 : sProp 𝕄)
      = (((c : Thread nD τ).loc main_v2_0) ↦{fullShare} V m c main_v2_0) := by
  rw [arr_pt, share_8]
theorem arr_pt_9 (c : Dev nD) :
    ((cfg0.win 9).arr.view.loc (c : Thread nD τ) ↦[(cfg0.win 9).arr.view.set]{(dats m 0 c).share 9} (dats m 0 c).arrAt 9 0 : sProp 𝕄)
      = (((c : Thread nD τ).loc main_v2_1) ↦{fullShare} V m c main_v2_1) := by
  rw [arr_pt, share_9]

/-- The seven arrays, one by one. -/
theorem arrBufs_listed (c : Dev nD) :
    (Pipeline.arrBufs spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_arg3) ↦{fullShare} V m c main_arg3)
          ∗ (((c : Thread nD τ).loc main_v1) ↦{fullShare} V m c main_v1) ∗ (((c : Thread nD τ).loc main_v2_0) ↦{fullShare} V m c main_v2_0)
          ∗ (((c : Thread nD τ).loc main_v2_1) ↦{fullShare} V m c main_v2_1)) := by
  unfold Pipeline.arrBufs
  exact bigSep_eq_bigSepL_of_eq _ arrays_listed (by decide) _

/-- From the seven arrays whole to the ten windows' arrays at their shares. -/
theorem arrays_dealt (c : Dev nD) :
    (Pipeline.arrBufs spec0 c (V m c) : sProp 𝕄) ⊢ (dats m 0 c).arrays ((dats m 0 c).arrAt · 0) := by
  rw [arrBufs_listed]
  unfold Dat.arrays
  rw [bigSep_W0]
  rw [arr_pt_0, arr_pt_1, arr_pt_2, arr_pt_3, arr_pt_4, arr_pt_5, arr_pt_6, arr_pt_7, arr_pt_8, arr_pt_9]
  iintro ⟨Hx, Hwe, Hbe, Hwd, Hbd, Hr, Hz⟩
  ihave Hwe' := (pointsTo_share (PosShare.mem_left_op_right fullShare)).1 $$ Hwe
  icases Hwe' with ⟨Hwe1, Hwe2⟩
  ihave Hbe' := (pointsTo_share (PosShare.mem_left_op_right fullShare)).1 $$ Hbe
  icases Hbe' with ⟨Hbe1, Hbe2⟩
  ihave Hwd' := (pointsTo_share (PosShare.mem_left_op_right fullShare)).1 $$ Hwd
  icases Hwd' with ⟨Hwd1, Hwd2⟩
  isplitl [Hx]; · iexact Hx
  isplitl [Hwe1]; · iexact Hwe1
  isplitl [Hwe2]; · iexact Hwe2
  isplitl [Hbe1]; · iexact Hbe1
  isplitl [Hbe2]; · iexact Hbe2
  isplitl [Hwd1]; · iexact Hwd1
  isplitl [Hwd2]; · iexact Hwd2
  isplitl [Hbd]; · iexact Hbd
  isplitl [Hr]; · iexact Hr
  iexact Hz

end Cert.Kernel.Hand

end
-- ==== Proof.LibSharedFrame.lean ====
/-
  The frame run of a pipelined kernel some of whose INPUT windows read one and the same array.

  The library's frame runs hold every windowed array at the full share, which asks the windows' arrays to be pairwise
  distinct. When one array is handed to the kernel through several input windows (two windows reading alternate
  blocks of one weight matrix, say) the array's full share has to be dealt among those windows instead: each input
  window holds its array at a part share, which is enough to read blocks from it, and the parts together are the
  whole. How the shares are dealt is the one thing that depends on the kernel (`hsplit`: from each distinct array
  held whole at its entry contents to every window's array at that window's share). Everything else is as for
  distinct arrays: the staging cells pairwise distinct, every staging buffer scoped and whole, the body obligation at
  every point, @main up to the region. The kernel uses no semaphore of its own and draws no random bits, so the
  invariant carried between points is just the core's scoped buffers that are no staging buffer.

  The conclusion is the library's frame post: every window's array ends at what the write-backs make of its entry
  contents (an input array unchanged), every other unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open PCS
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays. `hsplit` deals each distinct array, whole at its entry contents
    `V`, among the windows on it; `hin` / `hout` say the invariant before the first point and after the last is
    the scoped buffers that are no staging buffer. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => (BI.emp : sProp 𝕄)) (Y := fun _ => (BI.emp : sProp 𝕄))
    (Z := fun c => unscopedRest (Ix := Unit) (Name := ℕ) (U := UR sig nD τ) (Lvl := ℕ) (cfgs p).spec c (V c))
    (hX := fun c => by
      iintro HU
      isplitr [HU]
      · iempintro
      · iexact HU)
    (hin := fun c => by
      iintro ⟨-, HR⟩
      iapply (hin c); iexact HR)
    (hout := fun c => by
      iintro H
      isplitr [H]
      · iempintro
      · iapply (hout c); iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.BitsFrame.lean ====
/-
  The region's run and the frame.

  With the arrays dealt among the windows and the body obligation at every point, the region runs: every weakly fair
  execution of @main terminates, nothing faults, every window's array ends at what the write-backs make of its entry
  contents and every other unscoped buffer as the region found it. Read at the five arguments: x, the encoder weights
  and the decoder weights are input windows' arrays, never written; the two bias vectors are no window's array (the
  windows stand on their reshaped copies), so the region passes them by; and the host prefix wrote none of the five.
-/
import proofs.«126260_g48773648613903_cont_8to1_c_1082_14_alg».proof.Proof.BitsBody
import proofs.«126260_g48773648613903_cont_8to1_c_1082_14_alg».proof.Proof.BitsSplit
import proofs.«126260_g48773648613903_cont_8to1_c_1082_14_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The region's run, to the library's frame post over this proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_dealt m) (hin := fun _ => .rfl) (hout := fun _ => .rfl)

/-- The two bias vectors are unscoped and no window's array. -/
theorem arg2_bypasses : main_arg2 ∈ Pipeline.restRefs sig spec0 := Pipeline.mem_restRefs_of main_arg2 rfl (by decide)
theorem arg4_bypasses : main_arg4 ∈ Pipeline.restRefs sig spec0 := Pipeline.mem_restRefs_of main_arg4 rfl (by decide)

/-- The run with the two result arrays named — what the write-backs made of them — and the five arguments unchanged. -/
theorem run_named : θ_run defs (onTc (τ := τ) (main (F := F))) ⟨m, fun _ => 0, ρ⟩ (fun r => ∀ c : Dev nD,
      r.2.mem ((c.tc : Thread nD τ).loc main_v2_0) = (dats m 0 c).arrAt 8 cfg0.N
      ∧ r.2.mem ((c.tc : Thread nD τ).loc main_v2_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 arg2_bypasses).trans (V_main_arg2 m c),
      ((h c).1 5).trans (((dats m 0 c).arrAt_in 5 rfl _).trans ((A_eq m c 5).trans (V_main_arg3 m c))),
      ((h c).2 main_arg4 arg4_bypasses).trans (V_main_arg4 m c)⟩) (run_main m ρ)

/-- The frame: @main runs, and the five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_named m ρ)

end Cert.Kernel.Hand

end
-- ==== Proof.IdealEntry.lean ====
/-
  The region as @main reaches it, and what its input windows hold.

  @main reshapes the two bias vectors to one-row matrices and then launches the one pipelined region, so the
  region finds every argument array as launched and the two reshaped biases beside them. The region has ten windows
  over a grid of 16 points: the activations x (one block, fetched once), the encoder weights twice (block 2t and
  block 2t + 1 of 32 row-blocks), the encoder bias twice (likewise, of 32 column-blocks), the decoder weights twice
  (column-blocks 2t and 2t + 1), the decoder bias (one block), and the two results: the reconstruction (one block,
  carried from point to point and written back after the last) and the hidden code (column-block t of 16, written
  back at every point). Each input window's current staging buffer holds its array's block at every point. The body
  branches twice on the point: the first branch is taken at point 0 only, the second at every later point.
-/
import proofs.«126260_g48773648613903_cont_8to1_c_1082_14_alg».proof.Proof.Gen.KernelIdeal.Launch
import proofs.«126260_g48773648613903_cont_8to1_c_1082_14_alg».proof.Proof.Gen.KernelIdeal.Skeleton
import proofs.«126260_g48773648613903_cont_8to1_c_1082_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch contents after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. For any proof data whose array is the region's and whose body leaves the
    block in place; stated window by window, each window's block shape being its own. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The first branch's condition (the point is the first), from the grid coordinates. -/
abbrev isFirst (i : grid0.Coords) : Prop := k0_cond1 i = 1#1
/-- The second branch's condition (the point is a later one). -/
abbrev isLater (i : grid0.Coords) : Prop := k0_cond2 i = 1#1

/-- The first branch is taken at point 0 only; -/
theorem isFirst_iff : ∀ t : Fin cfg0.N, isFirst (grid0.coords t) ↔ t.val = 0 :=
  (by decide +kernel : ∀ t : Fin grid0.N, isFirst (grid0.coords t) ↔ t.val = 0)
/-- the second at every other point. -/
theorem isLater_iff : ∀ t : Fin cfg0.N, isLater (grid0.coords t) ↔ t.val ≠ 0 :=
  (by decide +kernel : ∀ t : Fin grid0.N, isLater (grid0.coords t) ↔ t.val ≠ 0)

/-- At every coordinate one of the two branches stores into the reconstruction's buffer: the window is nowhere idle. -/
theorem live_8 : ∀ i : grid0.Coords, cfg0.idle 8 i = false := by decide +kernel

/-! ## The staging memrefs as the pipeline passes them -/

abbrev ms0 (t : Fin cfg0.N) : Memref sig .tc .vmem S32x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x2048 .f32 := win0_9.stage (cfg0.slots t 9)
abbrev hs9 (t : Fin cfg0.N) : (ms9 t).IsWhole := hstage0_9 ((cfg0.slots t 9).cast nbuf0_9)

/-- One staging buffer of each result window, through which what the body leaves there is stated. -/
abbrev VO8 : View sig .tc .vmem S32x1024 .f32 := (Memref.whole cc0_stg8_0 : Memref sig .tc .vmem S32x1024 .f32).view
abbrev VO9 : View sig .tc .vmem S32x2048 .f32 := (Memref.whole cc0_stg9_0 : Memref sig .tc .vmem S32x2048 .f32).view

end Cert.KernelIdeal.Hand

end
-- ==== Proof.IdealRunFirst.lean ====
/-
  The body at the first grid point.

  There the first branch is taken and the second is not: the body reads its eight input buffers, stores the two
  halves of the hidden block into the code's buffer, and stores the block's share plus the output bias into the
  reconstruction's buffer, whose earlier contents it does not use. On whole staging memrefs, the inputs at their
  contents and the two result buffers at anything, the body runs to the inputs as they were and each result buffer
  written by the stores the run finds (the witness: the pieces, last first).
-/
import proofs.«126260_g48773648613903_cont_8to1_c_1082_14_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point's run: the pieces left in the reconstruction's buffer and in the code's buffer, with the body's
    triple over them. -/
noncomputable def runFirst (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole)
    (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) :
    { L : List (View.Piece (Elt F) S32x1024 .f32) × List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Hand

end
-- ==== Proof.IdealRunLater.lean ====
/-
  The body at a later grid point.

  There the first branch is skipped and the second is taken: the body reads its input buffers, stores the two halves of
  the hidden block into the code's buffer, then loads the reconstruction's buffer — which holds what the point before
  left — and stores it plus this block's share. On whole staging memrefs, the inputs at their contents, the
  reconstruction's buffer at the carried total and the code's buffer at anything, the body runs to the inputs as
  they were and each result buffer written by the stores the run finds.
-/
import proofs.«126260_g48773648613903_cont_8to1_c_1082_14_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point's run: the pieces left in the two result buffers, over the carried total `xo`. -/
noncomputable def runLater (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole)
    (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) :
    { L : List (View.Piece (Elt F) S32x1024 .f32) × List (View.Piece (Elt F) S32x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare xo ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Hand

end
-- ==== Proof.IdealData.lean ====
/-
  What the two result buffers hold after each grid point, and the pipeline's proof data.

  Each case's stores tile the buffer they write — one whole-block store for the reconstruction, two half-block
  stores for the hidden code — so what the case leaves there is its pieces read back. The reconstruction's buffer is
  not written back until the last point: after point 0 it holds the first case's contents, after each later point the
  second case's contents over what the point before left. The hidden code's buffer is written back at every point.
  The proof data: the arrays as the region finds them; each input's buffer at its block; the two result buffers at the
  contents above; nothing carried between points but the scoped rest; nothing owed. The encoder weights, the encoder
  bias and the decoder weights are each read through two windows: each such window holds its array at one half of
  the full share, every other input window at the full share.
-/
import proofs.«126260_g48773648613903_cont_8to1_c_1082_14_alg».proof.Proof.IdealRunFirst
import proofs.«126260_g48773648613903_cont_8to1_c_1082_14_alg».proof.Proof.IdealRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's store into the reconstruction's buffer covers it; -/
theorem coverFirst8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (y : S32x1024.Idx) :
    ∃ pc ∈ (runFirst c i arg1 harg1 arg2 harg2 arg3 harg3 arg4 harg4 arg5 harg5 arg6 harg6 arg7 harg7 arg8 harg8 arg9 harg9 arg10 harg10 hc1 hc2 x0 x1 x2 x3 x4 x5 x6 x7).1.1, y ∈ pc.1.set :=
  View.cover_of_tiledL (runFirst c i arg1 harg1 arg2 harg2 arg3 harg3 arg4 harg4 arg5 harg5 arg6 harg6 arg7 harg7 arg8 harg8 arg9 harg9 arg10 harg10 hc1 hc2 x0 x1 x2 x3 x4 x5 x6 x7).1.1 S32x1024.size (by sl_kernel_rfl) y
/-- its two stores into the code's buffer tile that one. -/
theorem coverFirst9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (y : S32x2048.Idx) :
    ∃ pc ∈ (runFirst c i arg1 harg1 arg2 harg2 arg3 harg3 arg4 harg4 arg5 harg5 arg6 harg6 arg7 harg7 arg8 harg8 arg9 harg9 arg10 harg10 hc1 hc2 x0 x1 x2 x3 x4 x5 x6 x7).1.2, y ∈ pc.1.set :=
  View.cover_of_tiledL (runFirst c i arg1 harg1 arg2 harg2 arg3 harg3 arg4 harg4 arg5 harg5 arg6 harg6 arg7 harg7 arg8 harg8 arg9 harg9 arg10 harg10 hc1 hc2 x0 x1 x2 x3 x4 x5 x6 x7).1.2 S32x1024.size (by sl_kernel_rfl) y

/-- What the first case leaves in the reconstruction's buffer: its pieces read back. -/
def outFirst8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) : Vec F S32x1024 .f32 :=
  VO8.read (Elt F) (VO8.writes (Elt F) VO8.junk (runFirst c i arg1 harg1 arg2 harg2 arg3 harg3 arg4 harg4 arg5 harg5 arg6 harg6 arg7 harg7 arg8 harg8 arg9 harg9 arg10 harg10 hc1 hc2 x0 x1 x2 x3 x4 x5 x6 x7).1.1)
/-- What the first case leaves in the code's buffer. -/
def outFirst9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) : Vec F S32x2048 .f32 :=
  VO9.read (Elt F) (VO9.writes (Elt F) VO9.junk (runFirst c i arg1 harg1 arg2 harg2 arg3 harg3 arg4 harg4 arg5 harg5 arg6 harg6 arg7 harg7 arg8 harg8 arg9 harg9 arg10 harg10 hc1 hc2 x0 x1 x2 x3 x4 x5 x6 x7).1.2)

theorem coverLater8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) (y : S32x1024.Idx) :
    ∃ pc ∈ (runLater c i arg1 harg1 arg2 harg2 arg3 harg3 arg4 harg4 arg5 harg5 arg6 harg6 arg7 harg7 arg8 harg8 arg9 harg9 arg10 harg10 hc1 hc2 x0 x1 x2 x3 x4 x5 x6 x7 xo).1.1, y ∈ pc.1.set :=
  View.cover_of_tiledL (runLater c i arg1 harg1 arg2 harg2 arg3 harg3 arg4 harg4 arg5 harg5 arg6 harg6 arg7 harg7 arg8 harg8 arg9 harg9 arg10 harg10 hc1 hc2 x0 x1 x2 x3 x4 x5 x6 x7 xo).1.1 S32x1024.size (by sl_kernel_rfl) y
theorem coverLater9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) (y : S32x2048.Idx) :
    ∃ pc ∈ (runLater c i arg1 harg1 arg2 harg2 arg3 harg3 arg4 harg4 arg5 harg5 arg6 harg6 arg7 harg7 arg8 harg8 arg9 harg9 arg10 harg10 hc1 hc2 x0 x1 x2 x3 x4 x5 x6 x7 xo).1.2, y ∈ pc.1.set :=
  View.cover_of_tiledL (runLater c i arg1 harg1 arg2 harg2 arg3 harg3 arg4 harg4 arg5 harg5 arg6 harg6 arg7 harg7 arg8 harg8 arg9 harg9 arg10 harg10 hc1 hc2 x0 x1 x2 x3 x4 x5 x6 x7 xo).1.2 S32x1024.size (by sl_kernel_rfl) y

/-- What a later case leaves in the reconstruction's buffer, over the carried total `xo`. -/
def outLater8 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) : Vec F S32x1024 .f32 :=
  VO8.read (Elt F) (VO8.writes (Elt F) VO8.junk (runLater c i arg1 harg1 arg2 harg2 arg3 harg3 arg4 harg4 arg5 harg5 arg6 harg6 arg7 harg7 arg8 harg8 arg9 harg9 arg10 harg10 hc1 hc2 x0 x1 x2 x3 x4 x5 x6 x7 xo).1.1)
/-- What a later case leaves in the code's buffer. -/
def outLater9 (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) : Vec F S32x2048 .f32 :=
  VO9.read (Elt F) (VO9.writes (Elt F) VO9.junk (runLater c i arg1 harg1 arg2 harg2 arg3 harg3 arg4 harg4 arg5 harg5 arg6 harg6 arg7 harg7 arg8 harg8 arg9 harg9 arg10 harg10 hc1 hc2 x0 x1 x2 x3 x4 x5 x6 x7 xo).1.2)

/-! ## Point by point -/

/-- The reconstruction's buffer after the body at position n: the first case at 0, a later case over the total so far. -/
def total (c : Dev nD) : (n : ℕ) → n < cfg0.N → Vec F S32x1024 .f32
  | 0, hn => outFirst8 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((isFirst_iff ⟨0, hn⟩).mpr rfl) (fun h => (isLater_iff ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => outLater8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => Nat.succ_ne_zero n ((isFirst_iff ⟨n + 1, hn⟩).mp h)) ((isLater_iff ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (total c n (Nat.lt_of_succ_lt hn))

/-- The code's buffer after the body at position n. -/
def hidden (c : Dev nD) : (n : ℕ) → n < cfg0.N → Vec F S32x2048 .f32
  | 0, hn => outFirst9 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((isFirst_iff ⟨0, hn⟩).mpr rfl) (fun h => (isLater_iff ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => outLater9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => Nat.succ_ne_zero n ((isFirst_iff ⟨n + 1, hn⟩).mp h)) ((isLater_iff ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (total m c n (Nat.lt_of_succ_lt hn))

/-- At the first point: the first case's contents. -/
theorem total_first (c : Dev nD) (t : Fin cfg0.N) (h0 : t.val = 0) :
    total m c t.val t.isLt = outFirst8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h0) (fun h => (isLater_iff t).mp h h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact absurd h0 (Nat.succ_ne_zero n)
theorem hidden_first (c : Dev nD) (t : Fin cfg0.N) (h0 : t.val = 0) :
    hidden m c t.val t.isLt = outFirst9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h0) (fun h => (isLater_iff t).mp h h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact absurd h0 (Nat.succ_ne_zero n)

/-- At a later point: the later case's contents over what the point before left. -/
theorem total_later (c : Dev nD) (t : Fin cfg0.N) (h0 : t.val ≠ 0) :
    total m c t.val t.isLt = outLater8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) (total m c (t.val - 1) (Nat.lt_of_le_of_lt (Nat.sub_le _ _) t.isLt)) := by
  obtain ⟨n, hn⟩ := t
  cases n with
  | zero => exact absurd rfl h0
  | succ n => exact rfl
theorem hidden_later (c : Dev nD) (t : Fin cfg0.N) (h0 : t.val ≠ 0) :
    hidden m c t.val t.isLt = outLater9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) (total m c (t.val - 1) (Nat.lt_of_le_of_lt (Nat.sub_le _ _) t.isLt)) := by
  obtain ⟨n, hn⟩ := t
  cases n with
  | zero => exact absurd rfl h0
  | succ n => exact rfl

/-! ## The proof data -/

/-- The share each window holds its array at: the three arrays read through two windows are halved between them. -/
def shareOf : Fin 10 → PosShare TreeShare
  | ⟨1, _⟩ => fullShare.left | ⟨2, _⟩ => fullShare.right
  | ⟨3, _⟩ => fullShare.left | ⟨4, _⟩ => fullShare.right
  | ⟨5, _⟩ => fullShare.left | ⟨6, _⟩ => fullShare.right
  | _ => fullShare

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => total m c t.val t.isLt
    | ⟨9, _⟩ => hidden m c t.val t.isLt
  Φ _ := Pipeline.scopedRest spec0 c
  q := shareOf
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = total m c t.val t.isLt := by dsimp only [dats]
theorem after_9 (c : Dev nD) (t : Fin cfg0.N) : (dats m 0 c).after 9 t = hidden m c t.val t.isLt := by dsimp only [dats]

/-- Each input's current staging buffer holds its block at every point. -/
theorem before_0 (c : Dev nD) (t : Fin cfg0.N) (d) : (dats m 0 c).before 0 t d = iblk m c 0 t := before_in_0 m (dats m 0 c) (A_eq m c 0) (after_0 m c) t d
theorem before_1 (c : Dev nD) (t : Fin cfg0.N) (d) : (dats m 0 c).before 1 t d = iblk m c 1 t := before_in_1 m (dats m 0 c) (A_eq m c 1) (after_1 m c) t d
theorem before_2 (c : Dev nD) (t : Fin cfg0.N) (d) : (dats m 0 c).before 2 t d = iblk m c 2 t := before_in_2 m (dats m 0 c) (A_eq m c 2) (after_2 m c) t d
theorem before_3 (c : Dev nD) (t : Fin cfg0.N) (d) : (dats m 0 c).before 3 t d = iblk m c 3 t := before_in_3 m (dats m 0 c) (A_eq m c 3) (after_3 m c) t d
theorem before_4 (c : Dev nD) (t : Fin cfg0.N) (d) : (dats m 0 c).before 4 t d = iblk m c 4 t := before_in_4 m (dats m 0 c) (A_eq m c 4) (after_4 m c) t d
theorem before_5 (c : Dev nD) (t : Fin cfg0.N) (d) : (dats m 0 c).before 5 t d = iblk m c 5 t := before_in_5 m (dats m 0 c) (A_eq m c 5) (after_5 m c) t d
theorem before_6 (c : Dev nD) (t : Fin cfg0.N) (d) : (dats m 0 c).before 6 t d = iblk m c 6 t := before_in_6 m (dats m 0 c) (A_eq m c 6) (after_6 m c) t d
theorem before_7 (c : Dev nD) (t : Fin cfg0.N) (d) : (dats m 0 c).before 7 t d = iblk m c 7 t := before_in_7 m (dats m 0 c) (A_eq m c 7) (after_7 m c) t d

/-- At a later point the reconstruction's buffer holds what the body left at the point before: the buffer is not
    written back between (only after the last point), the window is live everywhere and its block whole. -/
theorem before_8_later (c : Dev nD) (t : Fin cfg0.N) (h0 : t.val ≠ 0) (d) :
    (dats m 0 c).before 8 t d = total m c (t.val - 1) (Nat.lt_of_le_of_lt (Nat.sub_le _ _) t.isLt) := by
  have hN : t.val < 16 := lt_of_lt_of_eq t.isLt (show cfg0.N = 16 from N_0)
  rw [Dat.before_out_kept _ 8 rfl t h0 (Bool.eq_false_iff.mpr fun h => by have := (flush0_8 _).mp h; dsimp only at this; omega)
    live_8 (fun _ _ => rfl)]
  dsimp only [dats]

end Cert.KernelIdeal.Hand

end
-- ==== Proof.IdealBody.lean ====
/-
  The body obligation at every grid point.

  The body is called with each window's current staging buffer: the eight inputs at their blocks, the
  reconstruction's buffer at what the point before left (at the first point: anything), the code's buffer at
  anything. The point is the first or a later one; in either case that case's run applies, and what it leaves in the
  two result buffers is the proof data's contents for the point. Nothing else is carried, and the core owes nothing.
-/
import proofs.«126260_g48773648613903_cont_8to1_c_1082_14_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h0 : t.val = 0
  · rw [total_first m c t h0, hidden_first m c t h0]
    unfold outFirst8 outFirst9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) _ _ _ _ _ _ _ _ _ _ _ _ _ _ _ _ _ _ _ _ ((isFirst_iff t).mpr h0) (fun h => (isLater_iff t).mp h h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverFirst8 c _ _ _ _ _ _ _ _ _ _ _ _ _ _ _ _ _ _ _ _ _ _ _ _ _ _ _ _ _ _ _)
    · unfold owns; iexists _; isplitr
      swap; · iexact H9
      ipureintro; exact View.read_writes_of_cover _ _ _ _ _ (coverFirst9 c _ _ _ _ _ _ _ _ _ _ _ _ _ _ _ _ _ _ _ _ _ _ _ _ _ _ _ _ _ _ _)
  · rw [total_later m c t h0, hidden_later m c t h0]
    simp only [before_8_later m c t h0]
    unfold outLater8 outLater9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater c (grid0.coords t) _ _ _ _ _ _ _ _ _ _ _ _ _ _ _ _ _ _ _ _ (fun h => h0 ((isFirst_iff t).mp h)) ((isLater_iff t).mpr h0) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverLater8 c _ _ _ _ _ _ _ _ _ _ _ _ _ _ _ _ _ _ _ _ _ _ _ _ _ _ _ _ _ _ _ _)
    · unfold owns; iexists _; isplitr
      swap; · iexact H9
      ipureintro; exact View.read_writes_of_cover _ _ _ _ _ (coverLater9 c _ _ _ _ _ _ _ _ _ _ _ _ _ _ _ _ _ _ _ _ _ _ _ _ _ _ _ _ _ _ _ _)

/-- The reconstruction's window is live at every point, in the spelling the obligation states it in. -/
theorem live_8_at (t : Fin cfg0.N) : cfg0.idle 8 (cfg0.grid.coords t) = false := live_8 _

/-- The library's body obligation, at every point: the reconstruction's window is live there, so every window's
    buffer is returned at what the body left. -/
theorem body_obligation (c : Dev nD) : BodyObligation (dats (F := F) m 0 c) (defs₀ (F := F)) Variants.none () Set.univ := fun t => by
  rw [bigSep_W0, bigSep_W0]
  rw [live_8_at t]
  show bodyPre m c t ⊢ wp frame (wpE (defs₀ (F := F)) Variants.none c none) Set.univ (bodyAt0 t) (fun _ => bodyPost m c t)
  exact sound_body m c t

end Cert.KernelIdeal.Hand

end
-- ==== Proof.IdealSplit.lean ====
/-
  The arrays dealt among the windows.

  The region is handed seven distinct arrays, each whole at the full share: x, the encoder weights, the reshaped
  encoder bias, the decoder weights, the reshaped decoder bias, and the two results. Ten windows stand on them. The
  encoder weights, the encoder bias and the decoder weights are each read by two windows: the array's full share is
  split into its two halves, one for each window, which is all a window that only reads needs. Every other array goes
  to its one window whole.
-/
import proofs.«126260_g48773648613903_cont_8to1_c_1082_14_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the ten windows. -/
theorem arrays_listed :
    Finset.univ.image (Pipeline.arrRef spec0) = [main_arg0, main_arg1, main_v0, main_arg3, main_v1, main_v2_0, main_v2_1].toFinset := by
  decide

/-- A window's array in the proof data's own words — the array's view, its element set, the window's share, the entry
    contents — is the whole buffer at that share at the region's contents. -/
theorem arr_pt (c : Dev nD) (w : Fin cfg0.W) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{(dats m 0 c).share w} V m c (Pipeline.arrRef spec0 w)) := by
  rw [(arr_whole0 w).set_eq_univ]; rfl

theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.left := rfl
theorem share_4 (c : Dev nD) : (dats m 0 c).share 4 = fullShare.right := rfl
theorem share_5 (c : Dev nD) : (dats m 0 c).share 5 = fullShare.left := rfl
theorem share_6 (c : Dev nD) : (dats m 0 c).share 6 = fullShare.right := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

/-- The same window by window, the array and the share named. -/
theorem arr_pt_0 (c : Dev nD) :
    ((cfg0.win 0).arr.view.loc (c : Thread nD τ) ↦[(cfg0.win 0).arr.view.set]{(dats m 0 c).share 0} (dats m 0 c).arrAt 0 0 : sProp 𝕄)
      = (((c : Thread nD τ).loc main_arg0) ↦{fullShare} V m c main_arg0) := by
  rw [arr_pt, share_0]
theorem arr_pt_1 (c : Dev nD) :
    ((cfg0.win 1).arr.view.loc (c : Thread nD τ) ↦[(cfg0.win 1).arr.view.set]{(dats m 0 c).share 1} (dats m 0 c).arrAt 1 0 : sProp 𝕄)
      = (((c : Thread nD τ).loc main_arg1) ↦{fullShare.left} V m c main_arg1) := by
  rw [arr_pt, share_1]
theorem arr_pt_2 (c : Dev nD) :
    ((cfg0.win 2).arr.view.loc (c : Thread nD τ) ↦[(cfg0.win 2).arr.view.set]{(dats m 0 c).share 2} (dats m 0 c).arrAt 2 0 : sProp 𝕄)
      = (((c : Thread nD τ).loc main_arg1) ↦{fullShare.right} V m c main_arg1) := by
  rw [arr_pt, share_2]
theorem arr_pt_3 (c : Dev nD) :
    ((cfg0.win 3).arr.view.loc (c : Thread nD τ) ↦[(cfg0.win 3).arr.view.set]{(dats m 0 c).share 3} (dats m 0 c).arrAt 3 0 : sProp 𝕄)
      = (((c : Thread nD τ).loc main_v0) ↦{fullShare.left} V m c main_v0) := by
  rw [arr_pt, share_3]
theorem arr_pt_4 (c : Dev nD) :
    ((cfg0.win 4).arr.view.loc (c : Thread nD τ) ↦[(cfg0.win 4).arr.view.set]{(dats m 0 c).share 4} (dats m 0 c).arrAt 4 0 : sProp 𝕄)
      = (((c : Thread nD τ).loc main_v0) ↦{fullShare.right} V m c main_v0) := by
  rw [arr_pt, share_4]
theorem arr_pt_5 (c : Dev nD) :
    ((cfg0.win 5).arr.view.loc (c : Thread nD τ) ↦[(cfg0.win 5).arr.view.set]{(dats m 0 c).share 5} (dats m 0 c).arrAt 5 0 : sProp 𝕄)
      = (((c : Thread nD τ).loc main_arg3) ↦{fullShare.left} V m c main_arg3) := by
  rw [arr_pt, share_5]
theorem arr_pt_6 (c : Dev nD) :
    ((cfg0.win 6).arr.view.loc (c : Thread nD τ) ↦[(cfg0.win 6).arr.view.set]{(dats m 0 c).share 6} (dats m 0 c).arrAt 6 0 : sProp 𝕄)
      = (((c : Thread nD τ).loc main_arg3) ↦{fullShare.right} V m c main_arg3) := by
  rw [arr_pt, share_6]
theorem arr_pt_7 (c : Dev nD) :
    ((cfg0.win 7).arr.view.loc (c : Thread nD τ) ↦[(cfg0.win 7).arr.view.set]{(dats m 0 c).share 7} (dats m 0 c).arrAt 7 0 : sProp 𝕄)
      = (((c : Thread nD τ).loc main_v1) ↦{fullShare} V m c main_v1) := by
  rw [arr_pt, share_7]
theorem arr_pt_8 (c : Dev nD) :
    ((cfg0.win 8).arr.view.loc (c : Thread nD τ) ↦[(cfg0.win 8).arr.view.set]{(dats m 0 c).share 8} (dats m 0 c).arrAt 8 0 : sProp 𝕄)
      = (((c : Thread nD τ).loc main_v2_0) ↦{fullShare} V m c main_v2_0) := by
  rw [arr_pt, share_8]
theorem arr_pt_9 (c : Dev nD) :
    ((cfg0.win 9).arr.view.loc (c : Thread nD τ) ↦[(cfg0.win 9).arr.view.set]{(dats m 0 c).share 9} (dats m 0 c).arrAt 9 0 : sProp 𝕄)
      = (((c : Thread nD τ).loc main_v2_1) ↦{fullShare} V m c main_v2_1) := by
  rw [arr_pt, share_9]

/-- The seven arrays, one by one. -/
theorem arrBufs_listed (c : Dev nD) :
    (Pipeline.arrBufs spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_arg3) ↦{fullShare} V m c main_arg3)
          ∗ (((c : Thread nD τ).loc main_v1) ↦{fullShare} V m c main_v1) ∗ (((c : Thread nD τ).loc main_v2_0) ↦{fullShare} V m c main_v2_0)
          ∗ (((c : Thread nD τ).loc main_v2_1) ↦{fullShare} V m c main_v2_1)) := by
  unfold Pipeline.arrBufs
  exact bigSep_eq_bigSepL_of_eq _ arrays_listed (by decide) _

/-- From the seven arrays whole to the ten windows' arrays at their shares. -/
theorem arrays_dealt (c : Dev nD) :
    (Pipeline.arrBufs spec0 c (V m c) : sProp 𝕄) ⊢ (dats m 0 c).arrays ((dats m 0 c).arrAt · 0) := by
  rw [arrBufs_listed]
  unfold Dat.arrays
  rw [bigSep_W0]
  rw [arr_pt_0, arr_pt_1, arr_pt_2, arr_pt_3, arr_pt_4, arr_pt_5, arr_pt_6, arr_pt_7, arr_pt_8, arr_pt_9]
  iintro ⟨Hx, Hwe, Hbe, Hwd, Hbd, Hr, Hz⟩
  ihave Hwe' := (pointsTo_share (PosShare.mem_left_op_right fullShare)).1 $$ Hwe
  icases Hwe' with ⟨Hwe1, Hwe2⟩
  ihave Hbe' := (pointsTo_share (PosShare.mem_left_op_right fullShare)).1 $$ Hbe
  icases Hbe' with ⟨Hbe1, Hbe2⟩
  ihave Hwd' := (pointsTo_share (PosShare.mem_left_op_right fullShare)).1 $$ Hwd
  icases Hwd' with ⟨Hwd1, Hwd2⟩
  isplitl [Hx]; · iexact Hx
  isplitl [Hwe1]; · iexact Hwe1
  isplitl [Hwe2]; · iexact Hwe2
  isplitl [Hbe1]; · iexact Hbe1
  isplitl [Hbe2]; · iexact Hbe2
  isplitl [Hwd1]; · iexact Hwd1
  isplitl [Hwd2]; · iexact Hwd2
  isplitl [Hbd]; · iexact Hbd
  isplitl [Hr]; · iexact Hr
  iexact Hz

end Cert.KernelIdeal.Hand

end
-- ==== Proof.IdealFrame.lean ====
/-
  The region's run and the frame.

  With the arrays dealt among the windows and the body obligation at every point, the region runs: every weakly fair
  execution of @main terminates, nothing faults, every window's array ends at what the write-backs make of its entry
  contents and every other unscoped buffer as the region found it. Read at the five arguments: x, the encoder weights
  and the decoder weights are input windows' arrays, never written; the two bias vectors are no window's array (the
  windows stand on their reshaped copies), so the region passes them by; and the host prefix wrote none of the five.
-/
import proofs.«126260_g48773648613903_cont_8to1_c_1082_14_alg».proof.Proof.IdealBody
import proofs.«126260_g48773648613903_cont_8to1_c_1082_14_alg».proof.Proof.IdealSplit
import proofs.«126260_g48773648613903_cont_8to1_c_1082_14_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The region's run, to the library's frame post over this proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_dealt m) (hin := fun _ => .rfl) (hout := fun _ => .rfl)

/-- The two bias vectors are unscoped and no window's array. -/
theorem arg2_bypasses : main_arg2 ∈ Pipeline.restRefs sig spec0 := Pipeline.mem_restRefs_of main_arg2 rfl (by decide)
theorem arg4_bypasses : main_arg4 ∈ Pipeline.restRefs sig spec0 := Pipeline.mem_restRefs_of main_arg4 rfl (by decide)

/-- The run with the two result arrays named — what the write-backs made of them — and the five arguments unchanged. -/
theorem run_named : θ_run defs (onTc (τ := τ) (main (F := F))) ⟨m, fun _ => 0, ρ⟩ (fun r => ∀ c : Dev nD,
      r.2.mem ((c.tc : Thread nD τ).loc main_v2_0) = (dats m 0 c).arrAt 8 cfg0.N
      ∧ r.2.mem ((c.tc : Thread nD τ).loc main_v2_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 arg2_bypasses).trans (V_main_arg2 m c),
      ((h c).1 5).trans (((dats m 0 c).arrAt_in 5 rfl _).trans ((A_eq m c 5).trans (V_main_arg3 m c))),
      ((h c).2 main_arg4 arg4_bypasses).trans (V_main_arg4 m c)⟩) (run_main m ρ)

/-- The frame: @main runs, and the five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_named m ρ)

end Cert.KernelIdeal.Hand

end
-- ==== Proof.IdealPieces.lean ====
/-
  What each case's stores leave, as the body's pure values.

  The reconstruction's buffer is written by one store of the whole block: at the first point the block's share plus
  the output bias, at a later point the carried total plus the block's share. The hidden code's buffer is written by
  two stores, its left 1024 columns and its right 1024 columns: the first and the second hidden half-block. The loads
  feeding these values read whole staging buffers, so each is the buffer's contents.
-/
import proofs.«126260_g48773648613903_cont_8to1_c_1082_14_alg».proof.Proof.IdealData
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a store or load of a whole block. -/
theorem zero2 : (![0, 0] : Fin 2 → ℕ) = fun _ => 0 := by
  funext a; match a with | ⟨0, _⟩ => rfl | ⟨1, _⟩ => rfl

/-- A 32 × 2048 block from its two 32 × 1024 halves: columns below 1024 from the first, the others from the second. -/
def halves (lo hi : S32x1024.Idx → Elt F .f32) : S32x2048.Idx → Elt F .f32 :=
  fun y => if h : (y 1).val < 1024 then lo (ix2 (y 0) ⟨(y 1).val, h⟩)
    else hi (ix2 (y 0) ⟨(y 1).val - 1024, by have := (y 1).isLt; show (y 1).val - 1024 < 1024; have h2 : (y 1).val < 2048 := (y 1).isLt; omega⟩)

/-- The left half's rectangle embeds [p, q] at [p, q]; -/
theorem halves_lo (lo hi : S32x1024.Idx → Elt F .f32) (x : S32x1024.Idx) :
    halves lo hi ((Rect.unit (s := S32x2048) ![0, 0] S32x1024.size inb_S32x2048_S32x1024_0_0).emb x) = lo x := by
  have h1 : (((Rect.unit (s := S32x2048) ![0, 0] S32x1024.size inb_S32x2048_S32x1024_0_0).emb x) 1).val = (x 1).val := by
    show 0 + 1 * (x 1).val = (x 1).val; omega
  have h0 : (((Rect.unit (s := S32x2048) ![0, 0] S32x1024.size inb_S32x2048_S32x1024_0_0).emb x) 0).val = (x 0).val := by
    show 0 + 1 * (x 0).val = (x 0).val; omega
  have hx : (x 1).val < 1024 := (x 1).isLt
  unfold halves
  rw [dif_pos (by rw [h1]; exact hx)]
  refine congrArg lo (funext fun a => Fin.ext ?_)
  match a with
  | ⟨0, _⟩ => exact h0
  | ⟨1, _⟩ => exact h1
/-- the right half's at [p, 1024 + q]. -/
theorem halves_hi (lo hi : S32x1024.Idx → Elt F .f32) (x : S32x1024.Idx) :
    halves lo hi ((Rect.unit (s := S32x2048) ![0, 1024] S32x1024.size inb_S32x2048_S32x1024_0_1024).emb x) = hi x := by
  have h1 : (((Rect.unit (s := S32x2048) ![0, 1024] S32x1024.size inb_S32x2048_S32x1024_0_1024).emb x) 1).val = 1024 + (x 1).val := by
    show 1024 + 1 * (x 1).val = 1024 + (x 1).val; omega
  have h0 : (((Rect.unit (s := S32x2048) ![0, 1024] S32x1024.size inb_S32x2048_S32x1024_0_1024).emb x) 0).val = (x 0).val := by
    show 0 + 1 * (x 0).val = (x 0).val; omega
  unfold halves
  rw [dif_neg (by rw [h1]; omega)]
  refine congrArg hi (funext fun a => Fin.ext ?_)
  match a with
  | ⟨0, _⟩ => exact h0
  | ⟨1, _⟩ => show (((Rect.unit (s := S32x2048) ![0, 1024] S32x1024.size inb_S32x2048_S32x1024_0_1024).emb x) 1).val - 1024 = (x 1).val; rw [h1]; omega

/-! ## The first point -/

/-- The reconstruction's buffer after the first point: the block's share plus the output bias. -/
theorem first8_eq (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) :
    outFirst8 (F := F) c i arg1 harg1 arg2 harg2 arg3 harg3 arg4 harg4 arg5 harg5 arg6 harg6 arg7 harg7 arg8 harg8 arg9 harg9 arg10 harg10 hc1 hc2 x0 x1 x2 x3 x4 x5 x6 x7 = k0_pay5 x0 x1 x3 x0 x2 x4 x5 x6 x7 := by
  unfold outFirst8
  rw [View.read_writes_eq_canon _ _ _ (coverFirst8 c i arg1 harg1 arg2 harg2 arg3 harg3 arg4 harg4 arg5 harg5 arg6 harg6 arg7 harg7 arg8 harg8 arg9 harg9 arg10 harg10 hc1 hc2 x0 x1 x2 x3 x4 x5 x6 x7)]
  unfold runFirst
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S32x1024) zero2, View.ld_unit_zero (S := S1024x1024) zero2, View.ld_unit_zero (S := S1x1024) zero2]

/-- The code's buffer after the first point: the two hidden half-blocks side by side. -/
theorem first9_eq (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : isFirst i) (hc2 : ¬ isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) :
    outFirst9 (F := F) c i arg1 harg1 arg2 harg2 arg3 harg3 arg4 harg4 arg5 harg5 arg6 harg6 arg7 harg7 arg8 harg8 arg9 harg9 arg10 harg10 hc1 hc2 x0 x1 x2 x3 x4 x5 x6 x7 = halves (k0_pay2 x0 x1 x3) (k0_pay3 x0 x2 x4) := by
  funext y
  unfold outFirst9
  rw [View.read_writes_eq_canon _ _ _ (coverFirst9 c i arg1 harg1 arg2 harg2 arg3 harg3 arg4 harg4 arg5 harg5 arg6 harg6 arg7 harg7 arg8 harg8 arg9 harg9 arg10 harg10 hc1 hc2 x0 x1 x2 x3 x4 x5 x6 x7)]
  have hcov := coverFirst9 c i arg1 harg1 arg2 harg2 arg3 harg3 arg4 harg4 arg5 harg5 arg6 harg6 arg7 harg7 arg8 harg8 arg9 harg9 arg10 harg10 hc1 hc2 x0 x1 x2 x3 x4 x5 x6 x7 y
  revert hcov
  unfold runFirst
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S32x1024) zero2, View.ld_unit_zero (S := S1024x1024) zero2, View.ld_unit_zero (S := S1x1024) zero2]
  intro hcov
  refine View.canon_apply_of_pieces (halves (k0_pay2 x0 x1 x3) (k0_pay3 x0 x2 x4)) _ ?_ y hcov
  intro p hp x
  simp only [List.mem_cons, List.mem_nil_iff, or_false] at hp
  rcases hp with rfl | rfl
  · exact (halves_hi _ _ x).symm
  · exact (halves_lo _ _ x).symm

/-! ## A later point -/

/-- The reconstruction's buffer after a later point: the carried total plus the block's share. -/
theorem later8_eq (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) :
    outLater8 (F := F) c i arg1 harg1 arg2 harg2 arg3 harg3 arg4 harg4 arg5 harg5 arg6 harg6 arg7 harg7 arg8 harg8 arg9 harg9 arg10 harg10 hc1 hc2 x0 x1 x2 x3 x4 x5 x6 x7 xo = k0_pay1 (k0_pay4 x0 x1 x3 x0 x2 x4 x5 x6) xo := by
  unfold outLater8
  rw [View.read_writes_eq_canon _ _ _ (coverLater8 c i arg1 harg1 arg2 harg2 arg3 harg3 arg4 harg4 arg5 harg5 arg6 harg6 arg7 harg7 arg8 harg8 arg9 harg9 arg10 harg10 hc1 hc2 x0 x1 x2 x3 x4 x5 x6 x7 xo)]
  unfold runLater
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread,
    View.ld_unit_zero (S := S32x1024) zero2, View.ld_unit_zero (S := S1024x1024) zero2, View.ld_unit_zero (S := S1x1024) zero2]

/-- The code's buffer after a later point: the two hidden half-blocks side by side. -/
theorem later9_eq (c : Dev nD) (i : grid0.Coords) (arg1 : Memref sig .tc .vmem S32x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S32x1024 .f32) (harg9 : arg9.IsWhole) (arg10 : Memref sig .tc .vmem S32x2048 .f32) (harg10 : arg10.IsWhole) (hc1 : ¬ isFirst i) (hc2 : isLater i) (x0 : Vec F S32x1024 .f32) (x1 : Vec F S1024x1024 .f32) (x2 : Vec F S1024x1024 .f32) (x3 : Vec F S1x1024 .f32) (x4 : Vec F S1x1024 .f32) (x5 : Vec F S1024x1024 .f32) (x6 : Vec F S1024x1024 .f32) (x7 : Vec F S1x1024 .f32) (xo : Vec F S32x1024 .f32) :
    outLater9 (F := F) c i arg1 harg1 arg2 harg2 arg3 harg3 arg4 harg4 arg5 harg5 arg6 harg6 arg7 harg7 arg8 harg8 arg9 harg9 arg10 harg10 hc1 hc2 x0 x1 x2 x3 x4 x5 x6 x7 xo = halves (k0_pay2 x0 x1 x3) (k0_pay3 x0 x2 x4) := by
  funext y
  unfold outLater9
  rw [View.read_writes_eq_canon _ _ _ (coverLater9 c i arg1 harg1 arg2 harg2 arg3 harg3 arg4 harg4 arg5 harg5 arg6 harg6 arg7 harg7 arg8 harg8 arg9 harg9 arg10 harg10 hc1 hc2 x0 x1 x2 x3 x4 x5 x6 x7 xo)]
  have hcov := coverLater9 c i arg1 harg1 arg2 harg2 arg3 harg3 arg4 harg4 arg5 harg5 arg6 harg6 arg7 harg7 arg8 harg8 arg9 harg9 arg10 harg10 hc1 hc2 x0 x1 x2 x3 x4 x5 x6 x7 xo y
  revert hcov
  unfold runLater
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S32x1024) zero2, View.ld_unit_zero (S := S1024x1024) zero2, View.ld_unit_zero (S := S1x1024) zero2]
  intro hcov
  refine View.canon_apply_of_pieces (halves (k0_pay2 x0 x1 x3) (k0_pay3 x0 x2 x4)) _ ?_ y hcov
  intro p hp x
  simp only [List.mem_cons, List.mem_nil_iff, or_false] at hp
  rcases hp with rfl | rfl
  · exact (halves_hi _ _ x).symm
  · exact (halves_lo _ _ x).symm

end Cert.KernelIdeal.Hand

end
-- ==== Proof.IdealPoints.lean ====
/-
  The two result buffers point by point, as the body's pure values of the point's input blocks.

  At every point the hidden code's buffer holds the two hidden half-blocks of that point's blocks of x, the encoder
  weights and the encoder bias. The reconstruction's buffer holds, after point 0, the first block's share plus the
  output bias; after point n + 1, what it held after point n plus block n + 1's share.
-/
import proofs.«126260_g48773648613903_cont_8to1_c_1082_14_alg».proof.Proof.IdealPieces

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The hidden code's buffer after the body at point t. -/
theorem hidden_eq (c : Dev nD) (t : Fin cfg0.N) :
    hidden m c t.val t.isLt
      = halves (k0_pay2 (iblk m c 0 t) (iblk m c 1 t) (iblk m c 3 t)) (k0_pay3 (iblk m c 0 t) (iblk m c 2 t) (iblk m c 4 t)) := by
  by_cases h0 : t.val = 0
  · rw [hidden_first m c t h0]; exact first9_eq c _ _ _ _ _ _ _ _ _ _ _ _ _ _ _ _ _ _ _ _ _ _ _ _ _ _ _ _ _ _ _
  · rw [hidden_later m c t h0]; exact later9_eq c _ _ _ _ _ _ _ _ _ _ _ _ _ _ _ _ _ _ _ _ _ _ _ _ _ _ _ _ _ _ _ _

/-- The reconstruction's buffer after the body at the first point. -/
theorem total_first_eq (c : Dev nD) (t : Fin cfg0.N) (h0 : t.val = 0) :
    total m c t.val t.isLt
      = k0_pay5 (iblk m c 0 t) (iblk m c 1 t) (iblk m c 3 t) (iblk m c 0 t) (iblk m c 2 t) (iblk m c 4 t) (iblk m c 5 t) (iblk m c 6 t) (iblk m c 7 t) := by
  rw [total_first m c t h0]; exact first8_eq c _ _ _ _ _ _ _ _ _ _ _ _ _ _ _ _ _ _ _ _ _ _ _ _ _ _ _ _ _ _ _

/-- The reconstruction's buffer after the body at a later point, over what the point before left. -/
theorem total_later_eq (c : Dev nD) (t : Fin cfg0.N) (h0 : t.val ≠ 0) :
    total m c t.val t.isLt
      = k0_pay1 (k0_pay4 (iblk m c 0 t) (iblk m c 1 t) (iblk m c 3 t) (iblk m c 0 t) (iblk m c 2 t) (iblk m c 4 t) (iblk m c 5 t) (iblk m c 6 t))
          (total m c (t.val - 1) (Nat.lt_of_le_of_lt (Nat.sub_le _ _) t.isLt)) := by
  rw [total_later m c t h0]; exact later8_eq c _ _ _ _ _ _ _ _ _ _ _ _ _ _ _ _ _ _ _ _ _ _ _ _ _ _ _ _ _ _ _ _

end Cert.KernelIdeal.Hand

end
-- ==== Proof.IdealPayload.lean ====
/-
  The kernel body's pure values read at an index, over the extended reals.

  Each matrix product of the body contracts axis 1 of both operands, [32, 1024] with [1024, 1024], into a zero
  accumulator: its element [p, q] is Σ_{d < 1024} l[p, d] · r[q, d]. A bias block is one row [1, 1024], cast to its own
  shape and repeated down the 32 rows: at [p, q] it is the row's element q. Sums, products and maxima read pointwise,
  and the zero of the rectifier stays the float word it is written with. So
    the two hidden half-blocks at [p, q] are  max ((Σ_d x[p, d] · w[q, d]) + b[0, q]) 0,
    a block's share at [p, j] is              Σ_q h₀[p, q] · u₀[j, q] + Σ_q h₁[p, q] · u₁[j, q],
    the first grid point stores               share + bias[0, j],
    every later one                           stored + share.
-/
import proofs.«126260_g48773648613903_cont_8to1_c_1082_14_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The matrix product at an index -/

/-- The left operand's row coordinate is the result's. -/
theorem lhs_0 (i : S32x1024.Idx) (k : dot_S32x1024_S1024x1024_S32x1024_1_1_0_0_n_n.contr.Idx) :
    (dot_S32x1024_S1024x1024_S32x1024_1_1_0_0_n_n.lhsIdx i k 0).val = (i 0).val := by
  unfold DotDims.lhsIdx
  rw [dif_neg (show ¬(0 : Fin S32x1024.rank) ∈ dot_S32x1024_S1024x1024_S32x1024_1_1_0_0_n_n.lhsBatch by decide),
    dif_pos (show (0 : Fin S32x1024.rank) ∈ dot_S32x1024_S1024x1024_S32x1024_1_1_0_0_n_n.lhsNonContracting by decide)]
  rfl

/-- The left operand's column coordinate is the contraction position. -/
theorem lhs_1 (i : S32x1024.Idx) (k : dot_S32x1024_S1024x1024_S32x1024_1_1_0_0_n_n.contr.Idx) :
    (dot_S32x1024_S1024x1024_S32x1024_1_1_0_0_n_n.lhsIdx i k 1).val = (k ⟨0, by decide⟩).val :=
  dot_S32x1024_S1024x1024_S32x1024_1_1_0_0_n_n.lhsIdx_val_of_single rfl i k

/-- The right operand's row coordinate is the result's column coordinate. -/
theorem rhs_0 (i : S32x1024.Idx) (k : dot_S32x1024_S1024x1024_S32x1024_1_1_0_0_n_n.contr.Idx) :
    (dot_S32x1024_S1024x1024_S32x1024_1_1_0_0_n_n.rhsIdx i k 0).val = (i 1).val := by
  unfold DotDims.rhsIdx
  rw [dif_neg (show ¬(0 : Fin S1024x1024.rank) ∈ dot_S32x1024_S1024x1024_S32x1024_1_1_0_0_n_n.rhsBatch by decide),
    dif_pos (show (0 : Fin S1024x1024.rank) ∈ dot_S32x1024_S1024x1024_S32x1024_1_1_0_0_n_n.rhsNonContracting by decide)]
  rfl

/-- The right operand's column coordinate is the contraction position. -/
theorem rhs_1 (i : S32x1024.Idx) (k : dot_S32x1024_S1024x1024_S32x1024_1_1_0_0_n_n.contr.Idx) :
    (dot_S32x1024_S1024x1024_S32x1024_1_1_0_0_n_n.rhsIdx i k 1).val = (k ⟨0, by decide⟩).val :=
  dot_S32x1024_S1024x1024_S32x1024_1_1_0_0_n_n.rhsIdx_val_of_single rfl i k

/-- The product into a zero accumulator at [p, q]: Σ_d l[p, d] · r[q, d]. -/
theorem matmul_zero_apply (l : FVec Ideal S32x1024 .f32) (r : FVec Ideal S1024x1024 .f32) (p : Fin 32) (q : Fin 1024) :
    matmul dot_S32x1024_S1024x1024_S32x1024_1_1_0_0_n_n none l r (constant (F := Ideal) S32x1024 .f32 0x00000000#32) (ix2 p q)
      = ∑ d : Fin 1024, l (ix2 p d) * r (ix2 q d) := by
  refine (Ideal.matmul_constant_zero_apply dot_S32x1024_S1024x1024_S32x1024_1_1_0_0_n_n none l r (ix2 p q)).trans ?_
  rw [← Equiv.sum_comp (contrEquiv1 dot_S32x1024_S1024x1024_S32x1024_1_1_0_0_n_n 1024 rfl rfl).symm]
  refine Finset.sum_congr rfl fun d _ => ?_
  have hk := contrEquiv1_symm_val dot_S32x1024_S1024x1024_S32x1024_1_1_0_0_n_n 1024 rfl rfl d
  have el : dot_S32x1024_S1024x1024_S32x1024_1_1_0_0_n_n.lhsIdx (ix2 p q) ((contrEquiv1 dot_S32x1024_S1024x1024_S32x1024_1_1_0_0_n_n 1024 rfl rfl).symm d) = ix2 p d :=
    funext fun a => Fin.ext (by
      match a with
      | ⟨0, _⟩ => exact lhs_0 _ _
      | ⟨1, _⟩ => exact (lhs_1 _ _).trans hk)
  have er : dot_S32x1024_S1024x1024_S32x1024_1_1_0_0_n_n.rhsIdx (ix2 p q) ((contrEquiv1 dot_S32x1024_S1024x1024_S32x1024_1_1_0_0_n_n 1024 rfl rfl).symm d) = ix2 q d :=
    funext fun a => Fin.ext (by
      match a with
      | ⟨0, _⟩ => exact rhs_0 _ _
      | ⟨1, _⟩ => exact (rhs_1 _ _).trans hk)
  rw [el, er]

/-! ## A bias row at an index -/

/-- A one-row block cast to its own shape and repeated down the rows, at [p, q]: the row's element q. -/
theorem bias_apply (b : FVec Ideal S1x1024 .f32) (p : Fin 32) (q : Fin 1024) :
    broadcastTo S32x1024 (shapeCast S1x1024 b shapeCasts_S1x1024_S1x1024) broadcasts_S1x1024_S32x1024 (ix2 p q)
      = b (ix2 (0 : Fin 1) q) := by
  rw [shapeCast_self]
  exact broadcastTo_1b_ab_apply b broadcasts_S1x1024_S32x1024 p q

/-! ## The five payloads -/

/-- The first hidden half-block at [p, q]. -/
theorem pay2_apply (v0 : Vec Ideal S32x1024 .f32) (v1 : Vec Ideal S1024x1024 .f32) (v3 : Vec Ideal S1x1024 .f32)
    (p : Fin 32) (q : Fin 1024) :
    k0_pay2 (F := Ideal) v0 v1 v3 (ix2 p q)
      = max ((∑ d : Fin 1024, v0 (ix2 p d) * v1 (ix2 q d)) + v3 (ix2 (0 : Fin 1) q)) (Ideal.ofBits .f32 0x00000000#32) := by
  unfold k0_pay2
  rw [maximumf_apply, addf_apply, broadcast_apply, matmul_zero_apply, bias_apply, Ideal.ofBits_def]

/-- The second hidden half-block at [p, q]. -/
theorem pay3_apply (v9 : Vec Ideal S32x1024 .f32) (v10 : Vec Ideal S1024x1024 .f32) (v12 : Vec Ideal S1x1024 .f32)
    (p : Fin 32) (q : Fin 1024) :
    k0_pay3 (F := Ideal) v9 v10 v12 (ix2 p q)
      = max ((∑ d : Fin 1024, v9 (ix2 p d) * v10 (ix2 q d)) + v12 (ix2 (0 : Fin 1) q)) (Ideal.ofBits .f32 0x00000000#32) := by
  unfold k0_pay3
  rw [maximumf_apply, addf_apply, broadcast_apply, matmul_zero_apply, bias_apply, Ideal.ofBits_def]

/-- A block's share of the result at [p, j]: the two half-blocks' products with their rows of the decoder, summed. -/
theorem pay4_apply (v0 : Vec Ideal S32x1024 .f32) (v1 : Vec Ideal S1024x1024 .f32) (v3 : Vec Ideal S1x1024 .f32)
    (v9 : Vec Ideal S32x1024 .f32) (v10 : Vec Ideal S1024x1024 .f32) (v12 : Vec Ideal S1x1024 .f32)
    (v20 v22 : Vec Ideal S1024x1024 .f32) (p : Fin 32) (j : Fin 1024) :
    k0_pay4 (F := Ideal) v0 v1 v3 v9 v10 v12 v20 v22 (ix2 p j)
      = (∑ q : Fin 1024, k0_pay2 (F := Ideal) v0 v1 v3 (ix2 p q) * v20 (ix2 j q))
        + (∑ q : Fin 1024, k0_pay3 (F := Ideal) v9 v10 v12 (ix2 p q) * v22 (ix2 j q)) := by
  unfold k0_pay4
  rw [addf_apply, matmul_zero_apply, matmul_zero_apply]

/-- What the first grid point stores at [p, j]: the block's share plus the output bias. -/
theorem pay5_apply (v0 : Vec Ideal S32x1024 .f32) (v1 : Vec Ideal S1024x1024 .f32) (v3 : Vec Ideal S1x1024 .f32)
    (v9 : Vec Ideal S32x1024 .f32) (v10 : Vec Ideal S1024x1024 .f32) (v12 : Vec Ideal S1x1024 .f32)
    (v20 v22 : Vec Ideal S1024x1024 .f32) (v31 : Vec Ideal S1x1024 .f32) (p : Fin 32) (j : Fin 1024) :
    k0_pay5 (F := Ideal) v0 v1 v3 v9 v10 v12 v20 v22 v31 (ix2 p j)
      = k0_pay4 (F := Ideal) v0 v1 v3 v9 v10 v12 v20 v22 (ix2 p j) + v31 (ix2 (0 : Fin 1) j) := by
  unfold k0_pay5
  rw [addf_apply, bias_apply]

/-- What a later grid point stores at [p, j]: the stored total plus the block's share. -/
theorem pay1_apply (v24 : FVec Ideal S32x1024 .f32) (v31 : Vec Ideal S32x1024 .f32) (p : Fin 32) (j : Fin 1024) :
    k0_pay1 (F := Ideal) v24 v31 (ix2 p j) = v31 (ix2 p j) + v24 (ix2 p j) := by
  unfold k0_pay1
  rw [addf_apply, shapeCast_self]

end Cert.KernelIdeal.Payload

end
-- ==== Proof.Spec.lean ====
/-
  The two results as functions of the five argument arrays, over the extended reals, index by index.

  With x : [32, 1024], Wₑ : [32768, 1024], bₑ : [32768], W_d : [1024, 32768], b_d : [1024]:
    the hidden code     z[p, k]  = max (Σ_{d < 1024} x[p, d] · Wₑ[k, d] + bₑ[k]) 0          (k < 32768)
    the reconstruction  x̂[p, j] = (Σ_{k < 32768} z[p, k] · W_d[j, k]) + b_d[j]               (j < 1024).
  The hidden axis is also read in 16 consecutive blocks of 2048 = 2 · 1024 columns: column 2048·t + 1024·h + q is
  `col t h q`. One block's share of the reconstruction's sum is `part`; adding the shares up in block order, the
  bias joining after the first, is `acc`. The zero of `max` is kept as the float word it is written with.
-/
import Idealize.ShloMosaic.Lib.ValueIdx

noncomputable section

open scoped BigOperators

namespace Autoencoder

open Idealize.ShloMosaic Idealize.ShloMosaic.ValueIdx

/-- z[p, k]: the rectified affine image of row p of x under row k of Wₑ. -/
def code (x : (⟨2, ![32, 1024]⟩ : Shape).Idx → EReal) (We : (⟨2, ![32768, 1024]⟩ : Shape).Idx → EReal)
    (be : (⟨1, ![32768]⟩ : Shape).Idx → EReal) (p : Fin 32) (k : Fin 32768) : EReal :=
  max ((∑ d : Fin 1024, x (ix2 p d) * We (ix2 k d)) + be (ix1 k)) (Ideal.ofBits .f32 0x00000000#32)

/-- The hidden code as an array. -/
def codeArr (x : (⟨2, ![32, 1024]⟩ : Shape).Idx → EReal) (We : (⟨2, ![32768, 1024]⟩ : Shape).Idx → EReal)
    (be : (⟨1, ![32768]⟩ : Shape).Idx → EReal) : (⟨2, ![32, 32768]⟩ : Shape).Idx → EReal :=
  fun i => code x We be (i 0) (i 1)

/-- x̂[p, j] from a hidden code z: the whole sum over the hidden axis, then the bias. -/
def recon (z : Fin 32 → Fin 32768 → EReal) (Wd : (⟨2, ![1024, 32768]⟩ : Shape).Idx → EReal)
    (bd : (⟨1, ![1024]⟩ : Shape).Idx → EReal) (p : Fin 32) (j : Fin 1024) : EReal :=
  (∑ k : Fin 32768, z p k * Wd (ix2 j k)) + bd (ix1 j)

/-- The reconstruction as an array. -/
def reconArr (z : Fin 32 → Fin 32768 → EReal) (Wd : (⟨2, ![1024, 32768]⟩ : Shape).Idx → EReal)
    (bd : (⟨1, ![1024]⟩ : Shape).Idx → EReal) : (⟨2, ![32, 1024]⟩ : Shape).Idx → EReal :=
  fun i => recon z Wd bd (i 0) (i 1)

/-- Column 2048·t + 1024·h + q of the hidden axis: block t, half h, offset q. -/
def col (t : Fin 16) (h : Fin 2) (q : Fin 1024) : Fin 32768 :=
  ⟨2048 * t.val + 1024 * h.val + q.val, by have := t.isLt; have := h.isLt; have := q.isLt; omega⟩

/-- Block t's share of x̂[p, j]: its first half's products summed, plus its second half's. -/
def part (z : Fin 32 → Fin 32768 → EReal) (Wd : (⟨2, ![1024, 32768]⟩ : Shape).Idx → EReal) (p : Fin 32) (j : Fin 1024)
    (t : Fin 16) : EReal :=
  (∑ q : Fin 1024, z p (col t 0 q) * Wd (ix2 j (col t 0 q))) + (∑ q : Fin 1024, z p (col t 1 q) * Wd (ix2 j (col t 1 q)))

/-- The shares added in block order: the first with the bias, each later one onto the total so far. -/
def acc (s : Fin 16 → EReal) (b : EReal) : ℕ → EReal
  | 0 => s 0 + b
  | n + 1 => acc s b n + (if h : n + 1 < 16 then s ⟨n + 1, h⟩ else 0)

end Autoencoder

end
-- ==== Proof.IdealBlocks.lean ====
/-
  What each input window holds at a grid point, read off the argument arrays.

  The grid has 16 points. At point t the encoder weights' two windows hold row-blocks 2t and 2t + 1 of Wₑ (1024 rows
  each), the encoder bias's two windows column-blocks 2t and 2t + 1 of the one-row bₑ, the decoder weights' two windows
  column-blocks 2t and 2t + 1 of W_d; the activations and the decoder bias are one block each. An element y of a block
  sits in its array, on every axis, at the block index times the block's size plus y's coordinate, so block 2t + h
  at offset q is hidden column 2048·t + 1024·h + q. The two biases reach the region as one-row matrices, the vectors
  cast to [1, n]: their element [0, k] is the vector's element k.
-/
import proofs.«126260_g48773648613903_cont_8to1_c_1082_14_alg».proof.Proof.IdealEntry
import proofs.«126260_g48773648613903_cont_8to1_c_1082_14_alg».proof.Proof.Spec
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD) (t : Fin cfg0.N)

/-- A grid point as a block number below 16. -/
abbrev blockNo (t : Fin cfg0.N) : Fin 16 := ⟨t.val, by have h : t.val < grid0.N := t.isLt; rw [N_0] at h; exact h⟩

/-! ## The block indices at a point -/

/-- The printed index maps, decided over the grid: the one-block windows stay at block (0, 0); the encoder weights'
    windows are at row-blocks 2t and 2t + 1; the encoder bias's and the decoder weights' at column-blocks 2t and 2t + 1. -/
theorem idx_facts : ∀ t : Fin cfg0.N,
    (win0_0.index t (0 : Fin 2) = 0 ∧ win0_0.index t (1 : Fin 2) = 0)
    ∧ (win0_1.index t (0 : Fin 2) = 2 * t.val ∧ win0_1.index t (1 : Fin 2) = 0)
    ∧ (win0_2.index t (0 : Fin 2) = 2 * t.val + 1 ∧ win0_2.index t (1 : Fin 2) = 0)
    ∧ (win0_3.index t (0 : Fin 2) = 0 ∧ win0_3.index t (1 : Fin 2) = 2 * t.val)
    ∧ (win0_4.index t (0 : Fin 2) = 0 ∧ win0_4.index t (1 : Fin 2) = 2 * t.val + 1)
    ∧ (win0_5.index t (0 : Fin 2) = 0 ∧ win0_5.index t (1 : Fin 2) = 2 * t.val)
    ∧ (win0_6.index t (0 : Fin 2) = 0 ∧ win0_6.index t (1 : Fin 2) = 2 * t.val + 1)
    ∧ (win0_7.index t (0 : Fin 2) = 0 ∧ win0_7.index t (1 : Fin 2) = 0) :=
  (by decide +kernel : ∀ t : Fin grid0.N, _)

/-! ## The two biases as the region finds them -/

/-- The encoder bias reaches the region as one row: the vector cast to [1, 32768]. -/
theorem V_main_v0 : (V m c main_v0 : S1x32768.Idx → EReal)
    = shapeCast S1x32768 (m ((c : Thread nD τ).loc main_arg2)) shapeCasts_S32768_S1x32768 := by
  dsimp only [V, hostOps0]; after_results; rfl

/-- The decoder bias reaches the region as one row: the vector cast to [1, 1024]. -/
theorem V_main_v1 : (V m c main_v1 : S1x1024.Idx → EReal)
    = shapeCast S1x1024 (m ((c : Thread nD τ).loc main_arg4)) shapeCasts_S1024_S1x1024 := by
  dsimp only [V, hostOps0]; after_results; rfl

/-! ## Each window's block at an index -/

/-- The activations' window holds x itself. -/
theorem blk0_apply (p : Fin 32) (d : Fin 1024) :
    iblk m c 0 t (ix2 p d) = m ((c : Thread nD τ).loc main_arg0) (ix2 p d) := by
  obtain ⟨⟨e0, e1⟩, -⟩ := idx_facts t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_0.index t (0 : Fin 2) * 32 + 1 * p.val = p.val
    rw [e0]; omega
  | ⟨1, _⟩ =>
    show win0_0.index t (1 : Fin 2) * 1024 + 1 * d.val = d.val
    rw [e1]; omega

/-- The encoder weights' first window holds rows 2048·t + q of Wₑ. -/
theorem blk1_apply (q d : Fin 1024) :
    iblk m c 1 t (ix2 q d) = m ((c : Thread nD τ).loc main_arg1) (ix2 (Autoencoder.col (blockNo t) 0 q) d) := by
  obtain ⟨-, ⟨e0, e1⟩, -⟩ := idx_facts t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_1.index t (0 : Fin 2) * 1024 + 1 * q.val = 2048 * t.val + 1024 * 0 + q.val
    rw [e0]; omega
  | ⟨1, _⟩ =>
    show win0_1.index t (1 : Fin 2) * 1024 + 1 * d.val = d.val
    rw [e1]; omega

/-- The encoder weights' second window holds rows 2048·t + 1024 + q of Wₑ. -/
theorem blk2_apply (q d : Fin 1024) :
    iblk m c 2 t (ix2 q d) = m ((c : Thread nD τ).loc main_arg1) (ix2 (Autoencoder.col (blockNo t) 1 q) d) := by
  obtain ⟨-, -, ⟨e0, e1⟩, -⟩ := idx_facts t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_2.index t (0 : Fin 2) * 1024 + 1 * q.val = 2048 * t.val + 1024 * 1 + q.val
    rw [e0]; omega
  | ⟨1, _⟩ =>
    show win0_2.index t (1 : Fin 2) * 1024 + 1 * d.val = d.val
    rw [e1]; omega

/-- The encoder bias's first window holds elements 2048·t + q of bₑ. -/
theorem blk3_apply (q : Fin 1024) :
    iblk m c 3 t (ix2 (0 : Fin 1) q) = m ((c : Thread nD τ).loc main_arg2) (ix1 (Autoencoder.col (blockNo t) 0 q)) := by
  obtain ⟨-, -, -, ⟨e0, e1⟩, -⟩ := idx_facts t
  unfold iblk
  rw [View.read_apply]
  show V m c main_v0 _ = m (c.tc.loc main_arg2) _
  rw [V_main_v0]
  refine (shapeCast_addUnit_apply ![32768] _ _ _).trans ?_
  refine congrArg (m (c.tc.loc main_arg2)) (funext fun a => Fin.ext ?_)
  match a with
  | ⟨0, _⟩ =>
    show win0_3.index t (1 : Fin 2) * 1024 + 1 * q.val = 2048 * t.val + 1024 * 0 + q.val
    rw [e1]; omega

/-- The encoder bias's second window holds elements 2048·t + 1024 + q of bₑ. -/
theorem blk4_apply (q : Fin 1024) :
    iblk m c 4 t (ix2 (0 : Fin 1) q) = m ((c : Thread nD τ).loc main_arg2) (ix1 (Autoencoder.col (blockNo t) 1 q)) := by
  obtain ⟨-, -, -, -, ⟨e0, e1⟩, -⟩ := idx_facts t
  unfold iblk
  rw [View.read_apply]
  show V m c main_v0 _ = m (c.tc.loc main_arg2) _
  rw [V_main_v0]
  refine (shapeCast_addUnit_apply ![32768] _ _ _).trans ?_
  refine congrArg (m (c.tc.loc main_arg2)) (funext fun a => Fin.ext ?_)
  match a with
  | ⟨0, _⟩ =>
    show win0_4.index t (1 : Fin 2) * 1024 + 1 * q.val = 2048 * t.val + 1024 * 1 + q.val
    rw [e1]; omega

/-- The decoder weights' first window holds columns 2048·t + q of W_d. -/
theorem blk5_apply (j q : Fin 1024) :
    iblk m c 5 t (ix2 j q) = m ((c : Thread nD τ).loc main_arg3) (ix2 j (Autoencoder.col (blockNo t) 0 q)) := by
  obtain ⟨-, -, -, -, -, ⟨e0, e1⟩, -⟩ := idx_facts t
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ =>
    show win0_5.index t (0 : Fin 2) * 1024 + 1 * j.val = j.val
    rw [e0]; omega
  | ⟨1, _⟩ =>
    show win0_5.index t (1 : Fin 2) * 1024 + 1 * q.val = 2048 * t.val + 1024 * 0 + q.val
    rw [e1]; omega

/-- The decoder weights' second window holds columns 2048·t + 1024 + q of W_d. -/
theorem blk6_apply (j q : Fin 1024) :
    iblk m c 6 t (ix2 j q) = m ((c : Thread nD τ).loc main_arg3) (ix2 j (Autoencoder.col (blockNo t) 1 q)) := by
  obtain ⟨-, -, -, -, -, -, ⟨e0, e1⟩, -⟩ := idx_facts t
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ =>
    show win0_6.index t (0 : Fin 2) * 1024 + 1 * j.val = j.val
    rw [e0]; omega
  | ⟨1, _⟩ =>
    show win0_6.index t (1 : Fin 2) * 1024 + 1 * q.val = 2048 * t.val + 1024 * 1 + q.val
    rw [e1]; omega

/-- The decoder bias's window holds b_d itself, as one row. -/
theorem blk7_apply (j : Fin 1024) :
    iblk m c 7 t (ix2 (0 : Fin 1) j) = m ((c : Thread nD τ).loc main_arg4) (ix1 j) := by
  obtain ⟨-, -, -, -, -, -, -, e0, e1⟩ := idx_facts t
  unfold iblk
  rw [View.read_apply]
  show V m c main_v1 _ = m (c.tc.loc main_arg4) _
  rw [V_main_v1]
  refine (shapeCast_addUnit_apply ![1024] _ _ _).trans ?_
  refine congrArg (m (c.tc.loc main_arg4)) (funext fun a => Fin.ext ?_)
  match a with
  | ⟨0, _⟩ =>
    show win0_7.index t (1 : Fin 2) * 1024 + 1 * j.val = j.val
    rw [e1]; omega

end Cert.KernelIdeal.Hand

end
-- ==== Proof.BlockSum.lean ====
/-
  The hidden axis read in blocks.

  Every column k < 32768 is 2048·t + 1024·h + q for exactly one block t < 16, half h < 2 and offset q < 1024, so a sum
  over all the columns is the sum over the blocks of the two half-block sums. Adding the 16 shares up in block order,
  the bias joining after the first, gives the sum of the shares plus the bias. Together: the reconstruction is the
  last of the running totals of its blocks' shares. Only the commutativity and associativity of addition are used.
-/
import proofs.«126260_g48773648613903_cont_8to1_c_1082_14_alg».proof.Proof.Spec
import Mathlib.Algebra.BigOperators.Fin

noncomputable section

open scoped BigOperators

namespace Autoencoder

open Idealize.ShloMosaic Idealize.ShloMosaic.ValueIdx

/-- Block, half and offset name each column once: k ↦ (k / 2048, k % 2048 / 1024, k % 1024) inverts `col`. -/
def colEquiv : Fin 16 × Fin 2 × Fin 1024 ≃ Fin 32768 where
  toFun x := col x.1 x.2.1 x.2.2
  invFun k := (⟨k.val / 2048, by have := k.isLt; omega⟩, ⟨k.val % 2048 / 1024, by omega⟩, ⟨k.val % 1024, by omega⟩)
  left_inv := by
    rintro ⟨t, h, q⟩
    have := t.isLt; have := h.isLt; have := q.isLt
    refine Prod.ext (Fin.ext ?_) (Prod.ext (Fin.ext ?_) (Fin.ext ?_)) <;> simp only [col] <;> omega
  right_inv := by
    intro k
    have := k.isLt
    refine Fin.ext ?_
    simp only [col]
    omega

/-- A sum over the hidden axis, block by block: each block gives its first half's sum plus its second half's. -/
theorem sum_cols {M : Type*} [AddCommMonoid M] (f : Fin 32768 → M) :
    ∑ k : Fin 32768, f k = ∑ t : Fin 16, ((∑ q : Fin 1024, f (col t 0 q)) + (∑ q : Fin 1024, f (col t 1 q))) := by
  rw [← Equiv.sum_comp colEquiv f, Fintype.sum_prod_type]
  refine Finset.sum_congr rfl fun t _ => ?_
  rw [Fintype.sum_prod_type, Fin.sum_univ_two]
  rfl

/-- The running total after block n is the bias plus every share up to block n (a share past the last block is 0). -/
private theorem acc_eq_sum_range (s : Fin 16 → EReal) (b : EReal) (n : ℕ) :
    acc s b n = (∑ i ∈ Finset.range (n + 1), if h : i < 16 then s ⟨i, h⟩ else 0) + b := by
  induction n with
  | zero =>
    rw [Finset.sum_range_one, dif_pos (by omega : 0 < 16)]
    rfl
  | succ n ih =>
    rw [Finset.sum_range_succ _ (n + 1), add_right_comm, ← ih]
    rfl

/-- The last running total is the sum of the 16 shares plus the bias. -/
theorem acc_last (s : Fin 16 → EReal) (b : EReal) : acc s b 15 = (∑ t : Fin 16, s t) + b := by
  rw [acc_eq_sum_range, Finset.sum_fin_eq_sum_range]

/-- x̂[p, j] is the last running total of its 16 blocks' shares, the bias having joined after the first. -/
theorem recon_eq_acc (z : Fin 32 → Fin 32768 → EReal) (Wd : (⟨2, ![1024, 32768]⟩ : Shape).Idx → EReal)
    (bd : (⟨1, ![1024]⟩ : Shape).Idx → EReal) (p : Fin 32) (j : Fin 1024) :
    recon z Wd bd p j = acc (part z Wd p j) (bd (ix1 j)) 15 := by
  rw [acc_last]
  unfold recon
  rw [sum_cols (fun k => z p k * Wd (ix2 j k))]
  rfl

end Autoencoder

end
-- ==== Proof.IdealValue.lean ====
/-
  The two result arrays after the run are the specification's.

  At point t the body's first hidden half-block at [p, q] is the hidden code z[p, 2048·t + q], its second
  z[p, 2048·t + 1024 + q]; the block's share at [p, j] is `part` of block t. So the reconstruction's buffer after point
  n is the running total `acc` after block n, by induction on n; it is written back once, after the last point, as the
  whole array, and the last running total is the reconstruction (the block-sum law). The hidden code's buffer is
  written back at every point as columns 2048·t … 2048·t + 2047 of its array, and those sixteen blocks cover it.
-/
import proofs.«126260_g48773648613903_cont_8to1_c_1082_14_alg».proof.Proof.IdealPoints
import proofs.«126260_g48773648613903_cont_8to1_c_1082_14_alg».proof.Proof.IdealPayload
import proofs.«126260_g48773648613903_cont_8to1_c_1082_14_alg».proof.Proof.IdealBlocks
import proofs.«126260_g48773648613903_cont_8to1_c_1082_14_alg».proof.Proof.BlockSum

set_option maxRecDepth 16384

noncomputable section

open scoped BigOperators

namespace Cert.KernelIdeal.Hand

open Cert.KernelIdeal Cert.KernelIdeal.Gen Cert.KernelIdeal.Payload
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

/-! ## The argument arrays, as the specification takes them -/

abbrev aX : (⟨2, ![32, 1024]⟩ : Shape).Idx → EReal := m ((c : Thread nD τ).loc main_arg0)
abbrev aWe : (⟨2, ![32768, 1024]⟩ : Shape).Idx → EReal := m ((c : Thread nD τ).loc main_arg1)
abbrev aBe : (⟨1, ![32768]⟩ : Shape).Idx → EReal := m ((c : Thread nD τ).loc main_arg2)
abbrev aWd : (⟨2, ![1024, 32768]⟩ : Shape).Idx → EReal := m ((c : Thread nD τ).loc main_arg3)
abbrev aBd : (⟨1, ![1024]⟩ : Shape).Idx → EReal := m ((c : Thread nD τ).loc main_arg4)

/-- The hidden code of the argument arrays. -/
abbrev zOf : Fin 32 → Fin 32768 → EReal := Autoencoder.code (aX m c) (aWe m c) (aBe m c)

/-! ## One point's values -/

/-- The first hidden half-block at point t is the hidden code's columns 2048·t + q; -/
theorem half0_apply (t : Fin cfg0.N) (p : Fin 32) (q : Fin 1024) :
    k0_pay2 (F := Ideal) (iblk m c 0 t) (iblk m c 1 t) (iblk m c 3 t) (ix2 p q) = zOf m c p (Autoencoder.col (blockNo t) 0 q) := by
  rw [pay2_apply]
  simp only [blk0_apply m c t, blk1_apply m c t, blk3_apply m c t]
  rfl
/-- the second its columns 2048·t + 1024 + q. -/
theorem half1_apply (t : Fin cfg0.N) (p : Fin 32) (q : Fin 1024) :
    k0_pay3 (F := Ideal) (iblk m c 0 t) (iblk m c 2 t) (iblk m c 4 t) (ix2 p q) = zOf m c p (Autoencoder.col (blockNo t) 1 q) := by
  rw [pay3_apply]
  simp only [blk0_apply m c t, blk2_apply m c t, blk4_apply m c t]
  rfl

/-- Block t's share of the reconstruction at [p, j]. -/
theorem share_apply (t : Fin cfg0.N) (p : Fin 32) (j : Fin 1024) :
    k0_pay4 (F := Ideal) (iblk m c 0 t) (iblk m c 1 t) (iblk m c 3 t) (iblk m c 0 t) (iblk m c 2 t) (iblk m c 4 t) (iblk m c 5 t) (iblk m c 6 t) (ix2 p j)
      = Autoencoder.part (zOf m c) (aWd m c) p j (blockNo t) := by
  rw [pay4_apply]
  simp only [half0_apply m c t, half1_apply m c t, blk5_apply m c t, blk6_apply m c t]
  rfl

/-! ## The running total -/

/-- After point n the reconstruction's buffer holds the running total after block n. -/
theorem total_apply : ∀ (n : ℕ) (hn : n < cfg0.N) (p : Fin 32) (j : Fin 1024),
    total m c n hn (ix2 p j) = Autoencoder.acc (Autoencoder.part (zOf m c) (aWd m c) p j) (aBd m c (ix1 j)) n
  | 0, hn, p, j => by
    refine (congrFun (total_first_eq m c ⟨0, hn⟩ rfl) (ix2 p j)).trans ?_
    rw [pay5_apply, share_apply m c ⟨0, hn⟩, blk7_apply m c ⟨0, hn⟩]
    rfl
  | n + 1, hn, p, j => by
    have h16 : n + 1 < 16 := lt_of_lt_of_eq hn (show cfg0.N = 16 from N_0)
    refine (congrFun (total_later_eq m c ⟨n + 1, hn⟩ (Nat.succ_ne_zero n)) (ix2 p j)).trans ?_
    rw [pay1_apply, share_apply m c ⟨n + 1, hn⟩]
    have ih := total_apply n (Nat.lt_of_succ_lt hn) p j
    show total m c n (Nat.lt_of_succ_lt hn) (ix2 p j) + _ = _
    rw [ih]
    show _ = Autoencoder.acc _ _ n + (if h : n + 1 < 16 then _ else 0)
    rw [dif_pos h16]

/-! ## The reconstruction's array -/

/-- The reconstruction's window stays at block (0, 0); the code's window is at column-block t. -/
theorem idx_facts_out : ∀ t : Fin cfg0.N,
    (win0_8.index t (0 : Fin 2) = 0 ∧ win0_8.index t (1 : Fin 2) = 0)
    ∧ (win0_9.index t (0 : Fin 2) = 0 ∧ win0_9.index t (1 : Fin 2) = t.val) :=
  (by decide +kernel : ∀ t : Fin grid0.N, _)

/-- The specification's reconstruction of the argument arrays. -/
abbrev reconOf : S32x1024.Idx → EReal := Autoencoder.reconArr (zOf m c) (aWd m c) (aBd m c)
/-- The specification's hidden code of the argument arrays, as an array. -/
abbrev codeOf : S32x32768.Idx → EReal := Autoencoder.codeArr (aX m c) (aWe m c) (aBe m c)

/-- What the last point writes back is the reconstruction, whole. -/
theorem flushed8_eq (t : Fin cfg0.N) (hf : (cfg0.win 8).flush t = true) :
    (dats m 0 c).flushed 8 t = ((cfg0.win 8).blk t).view.read (Elt Ideal) (reconOf m c) := by
  have h15 : t.val = 15 := by
    have := (flush0_8 t).mp hf
    have hN : t.val < 16 := lt_of_lt_of_eq t.isLt (show cfg0.N = 16 from N_0)
    omega
  obtain ⟨⟨e0, e1⟩, -⟩ := idx_facts_out t
  show (cfg0.win 8).cut (grid0.coords t) ((dats m 0 c).after 8 t) = _
  rw [after_8]
  funext y
  obtain ⟨p, j, rfl⟩ : ∃ (p : Fin 32) (j : Fin 1024), y = ix2 p j := ⟨y 0, y 1, eq_ix2 y⟩
  rw [View.read_apply]
  show total m c t.val t.isLt (ix2 p j) = reconOf m c _
  rw [total_apply m c t.val t.isLt p j]
  have hemb : ((cfg0.win 8).blk t).view.emb (ix2 p j) = (ix2 p j : S32x1024.Idx) := by
    funext a; apply Fin.ext
    match a with
    | ⟨0, _⟩ => show win0_8.index t (0 : Fin 2) * 32 + 1 * p.val = p.val; rw [e0]; omega
    | ⟨1, _⟩ => show win0_8.index t (1 : Fin 2) * 1024 + 1 * j.val = j.val; rw [e1]; omega
  rw [hemb, h15]
  exact (Autoencoder.recon_eq_acc (zOf m c) (aWd m c) (aBd m c) p j).symm

/-- An index of the reconstruction's array is in point t's block iff each coordinate is in the block's range. -/
theorem mem_blk8 (t : Fin cfg0.N) (i : S32x1024.Idx) :
    i ∈ ((cfg0.win 8).blk t).view.set ↔ ∀ a : Fin 2, win0_8.index t a * S32x1024.size a ≤ (i a).val ∧ (i a).val < win0_8.index t a * S32x1024.size a + S32x1024.size a := by
  show i ∈ ((View.whole main_v2_0).slice (win0_8.rect t)).set ↔ _
  rw [View.set_slice_whole, Rect.mem_set_unit]
  exact Iff.rfl

/-- The reconstruction's array after the run. -/
theorem final8 : (dats m 0 c).arrAt 8 cfg0.N = reconOf m c := by
  refine (dats m 0 c).arrAt_eq_of_cover 8 (reconOf m c) (fun t hf => flushed8_eq m c t hf) (fun i => ?_)
  have h15 : 15 < cfg0.N := by rw [show cfg0.N = 16 from N_0]; omega
  refine ⟨⟨15, h15⟩, (flush0_8 _).mpr rfl, ?_⟩
  rw [mem_blk8]
  obtain ⟨⟨e0, e1⟩, -⟩ := idx_facts_out ⟨15, h15⟩
  intro a
  match a with
  | ⟨0, _⟩ =>
    show win0_8.index ⟨15, h15⟩ (0 : Fin 2) * 32 ≤ (i 0).val ∧ (i 0).val < win0_8.index ⟨15, h15⟩ (0 : Fin 2) * 32 + 32
    have hi : (i 0).val < 32 := (i 0).isLt
    rw [e0]; omega
  | ⟨1, _⟩ =>
    show win0_8.index ⟨15, h15⟩ (1 : Fin 2) * 1024 ≤ (i 1).val ∧ (i 1).val < win0_8.index ⟨15, h15⟩ (1 : Fin 2) * 1024 + 1024
    have hi : (i 1).val < 1024 := (i 1).isLt
    rw [e1]; omega

/-! ## The hidden code's array -/

/-- What point t writes back is columns 2048·t … 2048·t + 2047 of the hidden code. -/
theorem flushed9_eq (t : Fin cfg0.N) :
    (dats m 0 c).flushed 9 t = ((cfg0.win 9).blk t).view.read (Elt Ideal) (codeOf m c) := by
  obtain ⟨-, e0, e1⟩ := idx_facts_out t
  have hN : t.val < 16 := lt_of_lt_of_eq t.isLt (show cfg0.N = 16 from N_0)
  show (cfg0.win 9).cut (grid0.coords t) ((dats m 0 c).after 9 t) = _
  rw [after_9, hidden_eq]
  funext y
  obtain ⟨p, q, rfl⟩ : ∃ (p : Fin 32) (q : Fin 2048), y = ix2 p q := ⟨y 0, y 1, eq_ix2 y⟩
  rw [View.read_apply]
  have hemb : ((cfg0.win 9).blk t).view.emb (ix2 p q) = (ix2 p ⟨2048 * t.val + q.val, by have := q.isLt; omega⟩ : S32x32768.Idx) := by
    funext a; apply Fin.ext
    match a with
    | ⟨0, _⟩ => show win0_9.index t (0 : Fin 2) * 32 + 1 * p.val = p.val; rw [e0]; omega
    | ⟨1, _⟩ => show win0_9.index t (1 : Fin 2) * 2048 + 1 * q.val = 2048 * t.val + q.val; rw [e1]; omega
  rw [hemb]
  show halves (F := Ideal) _ _ (ix2 p q) = zOf m c p ⟨2048 * t.val + q.val, _⟩
  unfold halves
  by_cases hq : q.val < 1024
  · rw [dif_pos (show ((ix2 p q : S32x2048.Idx) 1).val < 1024 from hq)]
    refine (half0_apply m c t p ⟨q.val, hq⟩).trans ?_
    refine congrArg (zOf m c p) (Fin.ext ?_)
    show 2048 * t.val + 1024 * 0 + q.val = 2048 * t.val + q.val
    omega
  · rw [dif_neg (show ¬ ((ix2 p q : S32x2048.Idx) 1).val < 1024 from hq)]
    have hq2 : q.val - 1024 < 1024 := by have := q.isLt; omega
    refine (half1_apply m c t p ⟨q.val - 1024, hq2⟩).trans ?_
    refine congrArg (zOf m c p) (Fin.ext ?_)
    show 2048 * t.val + 1024 * 1 + (q.val - 1024) = 2048 * t.val + q.val
    omega

/-- An index of the hidden code's array is in point t's block iff each coordinate is in the block's range. -/
theorem mem_blk9 (t : Fin cfg0.N) (i : S32x32768.Idx) :
    i ∈ ((cfg0.win 9).blk t).view.set ↔ ∀ a : Fin 2, win0_9.index t a * S32x2048.size a ≤ (i a).val ∧ (i a).val < win0_9.index t a * S32x2048.size a + S32x2048.size a := by
  show i ∈ ((View.whole main_v2_1).slice (win0_9.rect t)).set ↔ _
  rw [View.set_slice_whole, Rect.mem_set_unit]
  exact Iff.rfl

/-- The hidden code's array after the run. -/
theorem final9 : (dats m 0 c).arrAt 9 cfg0.N = codeOf m c := by
  refine (dats m 0 c).arrAt_eq_of_cover 9 (codeOf m c) (fun t _ => flushed9_eq m c t) (fun i => ?_)
  have hi1 : (i 1).val < 32768 := (i 1).isLt
  have hi0 : (i 0).val < 32 := (i 0).isLt
  have ht : (i 1).val / 2048 < cfg0.N := by rw [show cfg0.N = 16 from N_0]; omega
  refine ⟨⟨(i 1).val / 2048, ht⟩, flush0_9 _, ?_⟩
  rw [mem_blk9]
  obtain ⟨-, e0, e1⟩ := idx_facts_out ⟨(i 1).val / 2048, ht⟩
  intro a
  match a with
  | ⟨0, _⟩ =>
    show win0_9.index ⟨(i 1).val / 2048, ht⟩ (0 : Fin 2) * 32 ≤ (i 0).val ∧ (i 0).val < win0_9.index ⟨(i 1).val / 2048, ht⟩ (0 : Fin 2) * 32 + 32
    rw [e0]; omega
  | ⟨1, _⟩ =>
    show win0_9.index ⟨(i 1).val / 2048, ht⟩ (1 : Fin 2) * 2048 ≤ (i 1).val ∧ (i 1).val < win0_9.index ⟨(i 1).val / 2048, ht⟩ (1 : Fin 2) * 2048 + 2048
    rw [e1]
    show (i 1).val / 2048 * 2048 ≤ (i 1).val ∧ (i 1).val < (i 1).val / 2048 * 2048 + 2048
    omega

end Cert.KernelIdeal.Hand

end
-- ==== Proof.RefRead.lean ====
/-
  The reference's run read one operation at a time: this module only brings the reference's run and its
  read-at-an-index lemmas into scope for the modules that compare the two programs' results.
-/
import proofs.«126260_g48773648613903_cont_8to1_c_1082_14_alg».proof.Proof.Gen.ReferenceIdeal.Read
-- ==== Proof.RefIsSpec.lean ====
/-
  The reference computes the specification.

  Read one operation at a time, the reference's hidden stage at [p, k] is
    max ((Σ_{d < 1024} x[p, d] · Wₑ[k, d]) + bₑ[k]) 0
  — the transposed Wₑ read at [d, k] is Wₑ[k, d], the twice-broadcast bₑ read at [p, k] is bₑ[k], and the broadcast zero
  is the zero word itself — and its result at [p, j] is
    (Σ_{k < 32768} z[p, k] · W_d[j, k]) + b_d[j]
  with z the hidden stage. These are the specification's `code` and `recon`, index by index.
-/
import proofs.«126260_g48773648613903_cont_8to1_c_1082_14_alg».proof.Proof.Spec
import proofs.«126260_g48773648613903_cont_8to1_c_1082_14_alg».proof.Proof.RefRead

noncomputable section

open scoped BigOperators

namespace Cert.ReferenceIdeal.RefValue

open Cert.ReferenceIdeal Cert.ReferenceIdeal.Read Idealize.ShloMosaic Idealize.ShloMosaic.ValueIdx

/-! ## Where each operand is read -/

/-- The first product's left operand at [p, ·], contraction position d: x at [p, d]. -/
theorem lidx_v1 (p : Fin 32) (k : Fin 32768) (d : Fin 1024) : lidx_main_v1 (ix2 p k) d = ix2 p d :=
  funext fun a => match a with | ⟨0, _⟩ => rfl | ⟨1, _⟩ => rfl

/-- The first product's right operand is Wₑ transposed, read at [d, k]: Wₑ at [k, d]. -/
theorem ridx_v1 (p : Fin 32) (k : Fin 32768) (d : Fin 1024) : idx_main_v0 (ridx_main_v1 (ix2 p k) d) = ix2 k d :=
  funext fun a => match a with | ⟨0, _⟩ => rfl | ⟨1, _⟩ => rfl

/-- The hidden bias, made a row and repeated down the rows, read at [p, k]: bₑ at [k]. -/
theorem idx_v3 (p : Fin 32) (k : Fin 32768) : idx_main_v2 (idx_main_v3 (ix2 p k)) = ix1 k :=
  funext fun a => match a with | ⟨0, _⟩ => rfl

/-- The second product's left operand at [p, ·], contraction position k: the hidden stage at [p, k]. -/
theorem lidx_v7 (p : Fin 32) (j : Fin 1024) (k : Fin 32768) : lidx_main_v7 (ix2 p j) k = ix2 p k :=
  funext fun a => match a with | ⟨0, _⟩ => rfl | ⟨1, _⟩ => rfl

/-- The second product's right operand is W_d transposed, read at [k, j]: W_d at [j, k]. -/
theorem ridx_v7 (p : Fin 32) (j : Fin 1024) (k : Fin 32768) : idx_main_v6 (ridx_main_v7 (ix2 p j) k) = ix2 j k :=
  funext fun a => match a with | ⟨0, _⟩ => rfl | ⟨1, _⟩ => rfl

/-- The output bias, made a row and repeated down the rows, read at [p, j]: b_d at [j]. -/
theorem idx_v9 (p : Fin 32) (j : Fin 1024) : idx_main_v8 (idx_main_v9 (ix2 p j)) = ix1 j :=
  funext fun a => match a with | ⟨0, _⟩ => rfl

/-! ## The two stages -/

/-- The reference's hidden stage is the specification's hidden code. -/
theorem ref_code (x0 : (⟨S32x1024, .f32⟩ : BufTy).Contents (Elt Ideal)) (x1 : (⟨S32768x1024, .f32⟩ : BufTy).Contents (Elt Ideal))
    (x2 : (⟨S32768, .f32⟩ : BufTy).Contents (Elt Ideal)) :
    Cert.ReferenceIdeal.Read.val_main_v5 (F := Ideal) x0 x1 x2 = Autoencoder.codeArr x0 x1 x2 := by
  funext i
  obtain ⟨p, k, rfl⟩ : ∃ (p : Fin 32) (k : Fin 32768), i = ix2 p k := ⟨i 0, i 1, eq_ix2 i⟩
  rw [val_main_v5_apply, val_main_v4_apply, val_main_v1_apply, val_main_v3_apply, val_main_v2_apply,
    val_main_call0_v0_apply, val_main_call0_cst_apply]
  simp only [val_main_v0_apply, lidx_v1, ridx_v1, idx_v3, Ideal.maximumf_def, Ideal.addf_def, Ideal.ofBits_def]
  rfl

/-- The reference's result is the specification's reconstruction from the hidden code. -/
theorem ref_recon (x0 : (⟨S32x1024, .f32⟩ : BufTy).Contents (Elt Ideal)) (x1 : (⟨S32768x1024, .f32⟩ : BufTy).Contents (Elt Ideal))
    (x2 : (⟨S32768, .f32⟩ : BufTy).Contents (Elt Ideal)) (x3 : (⟨S1024x32768, .f32⟩ : BufTy).Contents (Elt Ideal))
    (x4 : (⟨S1024, .f32⟩ : BufTy).Contents (Elt Ideal)) :
    Cert.ReferenceIdeal.Read.val_main_v10 (F := Ideal) x0 x1 x2 x3 x4
      = Autoencoder.reconArr (Autoencoder.code x0 x1 x2) x3 x4 := by
  funext i
  obtain ⟨p, j, rfl⟩ : ∃ (p : Fin 32) (j : Fin 1024), i = ix2 p j := ⟨i 0, i 1, eq_ix2 i⟩
  rw [val_main_v10_apply, val_main_v7_apply, val_main_v9_apply, val_main_v8_apply, ref_code]
  simp only [val_main_v6_apply, lidx_v7, ridx_v7, idx_v9, Ideal.addf_def]
  rfl

end Cert.ReferenceIdeal.RefValue

end
-- ==== Proof.lean ====
/-
  A sparse autoencoder's forward pass, fused into one pipelined kernel, against its plain definition.

  The reference computes the hidden code z = max (x · Wₑᵀ + bₑ) 0 (32 × 32768) and the reconstruction x̂ = z · W_dᵀ + b_d
  (32 × 1024) by two whole matrix products. The kernel walks the hidden axis in 16 grid points of 2048 columns, each
  handled as two halves of 1024: it forms the two hidden half-blocks from the matching rows of Wₑ and entries of bₑ,
  writes them out as columns of z, and adds their products with the matching columns of W_d onto a running total
  held in the reconstruction's buffer — the first point starting the total from its share plus b_d, the last point's
  total being written back as x̂. Wₑ, bₑ and W_d are each handed to the kernel through two windows (the even and the odd
  1024-blocks), which is why the frame of the kernel is proved here by hand: each such array's ownership is split in
  two halves between its two windows.

  Over the extended reals the two programs agree because a sum over the 32768 hidden columns is the sum over the 16
  blocks of the two half-block sums, and adding the blocks' shares up one after the other, the bias joining after the
  first, is the whole sum plus the bias: only commutativity and associativity of addition are used, so the inputs'
  finiteness is never opened. The ideal pass rewrote nothing, so the kernel's idealization is its own text.
-/
import proofs.«126260_g48773648613903_cont_8to1_c_1082_14_alg».proof.Defs
import proofs.«126260_g48773648613903_cont_8to1_c_1082_14_alg».proof.Proof.Gen.Kernel
import proofs.«126260_g48773648613903_cont_8to1_c_1082_14_alg».proof.Proof.Gen.KernelIdeal
import proofs.«126260_g48773648613903_cont_8to1_c_1082_14_alg».proof.Proof.Gen.ReferenceIdeal
import proofs.«126260_g48773648613903_cont_8to1_c_1082_14_alg».proof.Proof.Gen.Pre_finite_inputs
import proofs.«126260_g48773648613903_cont_8to1_c_1082_14_alg».proof.Proof.BitsFrame
import proofs.«126260_g48773648613903_cont_8to1_c_1082_14_alg».proof.Proof.IdealFrame
import proofs.«126260_g48773648613903_cont_8to1_c_1082_14_alg».proof.Proof.IdealValue
import proofs.«126260_g48773648613903_cont_8to1_c_1082_14_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the five arguments both programs end with the reconstruction and the hidden code of
    those arguments: the kernel's arrays by its write-backs, the reference's by its two products, one specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.reconOf m c, fun c => Cert.KernelIdeal.Hand.codeOf m c, ?_, ?_⟩
  · exact (θ_run Cert.KernelIdeal.defs _ _).mono
      (fun _ h c => ⟨(h c).1.trans (Cert.KernelIdeal.Hand.final8 m c), (h c).2.1.trans (Cert.KernelIdeal.Hand.final9 m c), (h c).2.2⟩)
      (Cert.KernelIdeal.Hand.run_named (F := Ideal) m ρ)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.Read.val_main_v10_eq _ _ _ _ _).trans
        ((Cert.ReferenceIdeal.RefValue.ref_recon _ _ _ _ _).trans ?_))
      rw [(hagree c).1, (hagree c).2.1, (hagree c).2.2.1, (hagree c).2.2.2.1, (hagree c).2.2.2.2]
    · refine (h c).2.1.trans ((Cert.ReferenceIdeal.Read.val_main_v5_eq _ _ _).trans
        ((Cert.ReferenceIdeal.RefValue.ref_code _ _ _).trans ?_))
      rw [(hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
